-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S500000x2 : Shape := ⟨2, ![500000, 2]⟩
abbrev S128x16 : Shape := ⟨2, ![128, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S8 .f32) (main_arg7 : FVec F S8x1 .f32) (main_arg8 : FVec F S1 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg6
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1 .f32 := Host.absf main_arg7
  let main_cst_8 : FVec F S_ .f32 := constant S_ .f32 0x7F800000#32
  let main_v25 : FVec F S8x1 .f32 := broadcastInDim S8x1 ![] bcast_S_S8x1 main_cst_8
  let main_v26 : IVec S8x1 1 := cmpf .olt main_v24 main_v25
  let main_c_9 : IVec S_ 1 := constantI S_ 1 1#1
  let main_v27 : IVec S_ 1 := (fun x v => Host.reduce IntOp.andi x v reducesTo_S8x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S500000x2 32) (main_arg3 : FVec F S128x16 .f32) (main_arg4 : FVec F S16 .f32) (main_arg5 : FVec F S16x8 .f32) (main_arg6 : FVec F S8 .f32) (main_arg7 : FVec F S8x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg5
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg6 main_arg7 main_arg8 main_v13 main_v16
-- ==== Kernel.lean ====
abbrev S100000x128 : Shape := ⟨2, ![100000, 128]⟩
abbrev S2x3200000 : Shape := ⟨2, ![2, 3200000]⟩
abbrev S500000x2 : Shape := ⟨2, ![500000, 2]⟩
abbrev S128x16 : Shape := ⟨2, ![128, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S5000x128 : Shape := ⟨2, ![5000, 128]⟩
abbrev S5000x1 : Shape := ⟨2, ![5000, 1]⟩
abbrev S5000x16 : Shape := ⟨2, ![5000, 16]⟩
abbrev S3300000x16 : Shape := ⟨2, ![3300000, 16]⟩
abbrev S1x16 : Shape := ⟨2, ![1, 16]⟩
abbrev S100000x8 : Shape := ⟨2, ![100000, 8]⟩
abbrev S5000x8 : Shape := ⟨2, ![5000, 8]⟩
abbrev S3300000x8 : Shape := ⟨2, ![3300000, 8]⟩
abbrev S1x8 : Shape := ⟨2, ![1, 8]⟩
abbrev S1x1 : Shape := ⟨2, ![1, 1]⟩
abbrev S500000x2x1 : Shape := ⟨3, ![500000, 2, 1]⟩
abbrev S500000x1x1 : Shape := ⟨3, ![500000, 1, 1]⟩
abbrev S500000 : Shape := ⟨1, ![500000]⟩

abbrev nBuf : Space → Nat
  | .hbm => 77
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S500000x2, .i32⟩
  | .hbm, ⟨3, _⟩ => ⟨S128x16, .f32⟩
  | .hbm, ⟨4, _⟩ => ⟨S16, .f32⟩
  | .hbm, ⟨5, _⟩ => ⟨S16x8, .f32⟩
  | .hbm, ⟨6, _⟩ => ⟨S8, .f32⟩
  | .hbm, ⟨7, _⟩ => ⟨S8x1, .f32⟩
  | .hbm, ⟨8, _⟩ => ⟨S1, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x16, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000x16, .f32⟩
  | .hbm, ⟨41, _⟩ => ⟨S_, .f32⟩
  | .hbm, ⟨42, _⟩ => ⟨S100000x16, .f32⟩
  | .hbm, ⟨43, _⟩ => ⟨S3300000x1, .i32⟩
  | .hbm, ⟨44, _⟩ => ⟨S100000x16, .f32⟩
  | .hbm, ⟨45, _⟩ => ⟨S1x16, .f32⟩
  | .hbm, ⟨46, _⟩ => ⟨S100000x8, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x8, .f32⟩
  | .hbm, ⟨56, _⟩ => ⟨S_, .f32⟩
  | .hbm, ⟨57, _⟩ => ⟨S100000x8, .f32⟩
  | .hbm, ⟨58, _⟩ => ⟨S3300000x1, .i32⟩
  | .hbm, ⟨59, _⟩ => ⟨S100000x8, .f32⟩
  | .hbm, ⟨60, _⟩ => ⟨S1x8, .f32⟩
  | .hbm, ⟨61, _⟩ => ⟨S1x1, .f32⟩
  | .hbm, ⟨62, _⟩ => ⟨S100000x1, .f32⟩
  | .hbm, ⟨63, _⟩ => ⟨S_, .i32⟩
  | .hbm, ⟨64, _⟩ => ⟨S500000x2, .i32⟩
  | .hbm, ⟨65, _⟩ => ⟨S500000x2, .i1⟩
  | .hbm, ⟨66, _⟩ => ⟨S_, .i32⟩
  | .hbm, ⟨67, _⟩ => ⟨S500000x2, .i32⟩
  | .hbm, ⟨68, _⟩ => ⟨S500000x2, .i32⟩
  | .hbm, ⟨69, _⟩ => ⟨S500000x2, .i32⟩
  | .hbm, ⟨70, _⟩ => ⟨S500000x2x1, .i32⟩
  | .hbm, ⟨71, _⟩ => ⟨S500000x2x1, .f32⟩
  | .hbm, ⟨72, _⟩ => ⟨S500000x1x1, .f32⟩
  | .hbm, ⟨73, _⟩ => ⟨S500000, .f32⟩
  | .hbm, ⟨74, _⟩ => ⟨S500000x1x1, .f32⟩
  | .hbm, ⟨75, _⟩ => ⟨S500000, .f32⟩
  | .hbm, ⟨76, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S16x8, .f32⟩
  | .local _ .vmem, ⟨13, _⟩ => ⟨S5000x8, .f32⟩
  | .local _ .vmem, ⟨14, _⟩ => ⟨S5000x8, .f32⟩
  | .local _ .vmem, ⟨15, _⟩ => ⟨S5000x8, .f32⟩
  | .local _ .vmem, ⟨16, _⟩ => ⟨S5000x8, .f32⟩
  | .local _ .vmem, ⟨17, _⟩ => ⟨S5000x1, .f32⟩
  | .local _ .vmem, ⟨18, _⟩ => ⟨S5000x1, .f32⟩
  | .local _ .vmem, ⟨19, _⟩ => ⟨S1x8, .f32⟩
  | .local _ .vmem, ⟨20, _⟩ => ⟨S8x1, .f32⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x8_S16x8_0_0 : ∀ a, (![0, 0] : Fin 2 → Nat) a + S16x8.size a ≤ S16x8.size a
  h_S16x8 : 0 < S16x8.numel
  broadcasts_S5000x1_S5000x8 : S5000x1.Broadcasts S5000x8
  inb_S5000x8_S5000x8_0_0 : ∀ a, (![0, 0] : Fin 2 → Nat) a + S5000x8.size a ≤ S5000x8.size a
  h_S5000x8 : 0 < S5000x8.numel
  bcast_S_S100000x8 : S_.BroadcastsInDim S100000x8 (![] : Fin 0 → Fin S100000x8.rank)
  shapeCasts_S8_S1x8 : S8.ShapeCasts S1x8
  shapeCasts_S1_S1x1 : S1.ShapeCasts S1x1
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S8x1_S8x1_0_0 : ∀ a, (![0, 0] : Fin 2 → Nat) a + S8x1.size a ≤ S8x1.size a
  h_S8x1 : 0 < S8x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  bcast_S_S500000x2 : S_.BroadcastsInDim S500000x2 (![] : Fin 0 → Fin S500000x2.rank)
  bcast_S500000x2_S500000x2x1_0_1 : S500000x2.BroadcastsInDim S500000x2x1 (![0, 1] : Fin 2 → Fin S500000x2x1.rank)
  slices_S500000x2x1_S500000x1x1_0_0_0 : S500000x2x1.Slices ![0, 0, 0] S500000x1x1
  shapeCasts_S500000x1x1_S500000 : S500000x1x1.ShapeCasts S500000
  slices_S500000x2x1_S500000x1x1_0_1_0 : S500000x2x1.Slices ![0, 1, 0] S500000x1x1
  scatter_S100000_S3300000x1_S3300000_n_0_0_1_wf : ScatterDims.WF S100000 S3300000x1 S3300000 [] [0] [0] 1
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x8_S5000x8_1_0_0_1_n_n_wf : DotDims.WF S5000x16 S16x8 S5000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S5000x8_S8x1_S5000x1_1_0_0_1_n_n_wf : DotDims.WF S5000x8 S8x1 S5000x1 [1] [0] [0] [1] [] []
  gather_S100000x1_S500000x2x1_S500000x2x1_2_0_n_n_0_2_11_wf : GatherDims.WF S100000x1 S500000x2x1 S500000x2x1 [2] [0] [] [0] [] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x8.size a ≤ S16x8.size a
  hwx1_3 : ∀ i : grid1.Coords, EltTy.bits .f32 = 32 ∨ (Rect.block (s := S16x8) S16x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x8.size a ≤ S100000x8.size a
  hwx1_4 : ∀ i : grid1.Coords, EltTy.bits .f32 = 32 ∨ (Rect.block (s := S100000x8) S5000x8.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x8.size a ≤ S100000x8.size a
  hwx2_0 : ∀ i : grid2.Coords, EltTy.bits .f32 = 32 ∨ (Rect.block (s := S100000x8) S5000x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8.size a ≤ S1x8.size a
  hwx2_2 : ∀ i : grid2.Coords, EltTy.bits .f32 = 32 ∨ (Rect.block (s := S1x8) S1x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8x1.size a ≤ S8x1.size a
  hwx2_3 : ∀ i : grid2.Coords, EltTy.bits .f32 = 32 ∨ (Rect.block (s := S8x1) S8x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S100000x1.size a
  hwx2_5 : ∀ i : grid2.Coords, EltTy.bits .f32 = 32 ∨ (Rect.block (s := S100000x1) S5000x1.size (cc2_transform_5 i) (hinb2_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x8_S5000x8_1_0_0_1_n_n : DotDims S5000x16 S16x8 S5000x8 where
  lhsContracting := [1]
  rhsContracting := [0]
  lhsNonContracting := [0]
  rhsNonContracting := [1]
  lhsBatch := []
  rhsBatch := []
  wf := dot_S5000x16_S16x8_S5000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S5000x8_S8x1_S5000x1_1_0_0_1_n_n : DotDims S5000x8 S8x1 S5000x1 where
  lhsContracting := [1]
  rhsContracting := [0]
  lhsNonContracting := [0]
  rhsNonContracting := [1]
  lhsBatch := []
  rhsBatch := []
  wf := dot_S5000x8_S8x1_S5000x1_1_0_0_1_n_n_wf
def gather_S100000x1_S500000x2x1_S500000x2x1_2_0_n_n_0_2_11 : GatherDims S100000x1 S500000x2x1 S500000x2x1 where
  offsetDims := [2]
  collapsedSliceDims := [0]
  operandBatchingDims := []
  startIndicesBatchingDims := []
  startIndexMap := [0]
  indexVectorDim := 2
  sliceSizes := ![1, 1]
  wf := gather_S100000x1_S500000x2x1_S500000x2x1_2_0_n_n_0_2_11_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S16x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S8x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S5000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S500000x2 : Shape := ⟨2, ![500000, 2]⟩
abbrev S128x16 : Shape := ⟨2, ![128, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x8 : Shape := ⟨2, ![100000, 8]⟩
abbrev S3300000x8 : Shape := ⟨2, ![3300000, 8]⟩
abbrev S1x8 : Shape := ⟨2, ![1, 8]⟩
abbrev S100000x1 : Shape := ⟨2, ![100000, 1]⟩
abbrev S1x1 : Shape := ⟨2, ![1, 1]⟩
abbrev S500000x2x1 : Shape := ⟨3, ![500000, 2, 1]⟩
abbrev S500000x1x1 : Shape := ⟨3, ![500000, 1, 1]⟩
abbrev S500000 : Shape := ⟨1, ![500000]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S500000x2, .i32⟩
  | .hbm, ⟨3, _⟩ => ⟨S128x16, .f32⟩
  | .hbm, ⟨4, _⟩ => ⟨S16, .f32⟩
  | .hbm, ⟨5, _⟩ => ⟨S16x8, .f32⟩
  | .hbm, ⟨6, _⟩ => ⟨S8, .f32⟩
  | .hbm, ⟨7, _⟩ => ⟨S8x1, .f32⟩
  | .hbm, ⟨8, _⟩ => ⟨S1, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S100000x8, .f32⟩
  | .hbm, ⟨70, _⟩ => ⟨S3300000x1, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x8, .f32⟩
  | .hbm, ⟨80, _⟩ => ⟨S3300000x8, .f32⟩
  | .hbm, ⟨81, _⟩ => ⟨S3300000x8, .f32⟩
  | .hbm, ⟨82, _⟩ => ⟨S_, .f32⟩
  | .hbm, ⟨83, _⟩ => ⟨S100000x8, .f32⟩
  | .hbm, ⟨84, _⟩ => ⟨S3300000x1, .i32⟩
  | .hbm, ⟨85, _⟩ => ⟨S100000x8, .f32⟩
  | .hbm, ⟨86, _⟩ => ⟨S1x8, .f32⟩
  | .hbm, ⟨87, _⟩ => ⟨S100000x8, .f32⟩
  | .hbm, ⟨88, _⟩ => ⟨S100000x8, .f32⟩
  | .hbm, ⟨89, _⟩ => ⟨S100000x1, .f32⟩
  | .hbm, ⟨90, _⟩ => ⟨S1x1, .f32⟩
  | .hbm, ⟨91, _⟩ => ⟨S100000x1, .f32⟩
  | .hbm, ⟨92, _⟩ => ⟨S100000x1, .f32⟩
  | .hbm, ⟨93, _⟩ => ⟨S100000x1, .f32⟩
  | .hbm, ⟨94, _⟩ => ⟨S100000x1, .f32⟩
  | .hbm, ⟨95, _⟩ => ⟨S_, .f32⟩
  | .hbm, ⟨96, _⟩ => ⟨S100000x1, .f32⟩
  | .hbm, ⟨97, _⟩ => ⟨S100000x1, .f32⟩
  | .hbm, ⟨98, _⟩ => ⟨S_, .f32⟩
  | .hbm, ⟨99, _⟩ => ⟨S100000x1, .f32⟩
  | .hbm, ⟨100, _⟩ => ⟨S100000x1, .f32⟩
  | .hbm, ⟨101, _⟩ => ⟨S_, .i32⟩
  | .hbm, ⟨102, _⟩ => ⟨S500000x2, .i32⟩
  | .hbm, ⟨103, _⟩ => ⟨S500000x2, .i1⟩
  | .hbm, ⟨104, _⟩ => ⟨S_, .i32⟩
  | .hbm, ⟨105, _⟩ => ⟨S500000x2, .i32⟩
  | .hbm, ⟨106, _⟩ => ⟨S500000x2, .i32⟩
  | .hbm, ⟨107, _⟩ => ⟨S500000x2, .i32⟩
  | .hbm, ⟨108, _⟩ => ⟨S500000x2x1, .i32⟩
  | .hbm, ⟨109, _⟩ => ⟨S500000x2x1, .f32⟩
  | .hbm, ⟨110, _⟩ => ⟨S500000x1x1, .f32⟩
  | .hbm, ⟨111, _⟩ => ⟨S500000, .f32⟩
  | .hbm, ⟨112, _⟩ => ⟨S500000x1x1, .f32⟩
  | .hbm, ⟨113, _⟩ => ⟨S500000, .f32⟩
  | .hbm, ⟨114, _⟩ => ⟨S500000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_12 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_c_14 : Ref sig .tc := ⟨.hbm, 101, rfl⟩
abbrev main_v74 : Ref sig .tc := ⟨.hbm, 102, rfl⟩
abbrev main_v75 : Ref sig .tc := ⟨.hbm, 103, rfl⟩
abbrev main_c_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S_S500000x2 : S_.BroadcastsInDim S500000x2 (![] : Fin 0 → Fin S500000x2.rank)
  bcast_S500000x2_S500000x2x1_0_1 : S500000x2.BroadcastsInDim S500000x2x1 (![0, 1] : Fin 2 → Fin S500000x2x1.rank)
  slices_S500000x2x1_S500000x1x1_0_0_0 : S500000x2x1.Slices ![0, 0, 0] S500000x1x1
  shapeCasts_S500000x1x1_S500000 : S500000x1x1.ShapeCasts S500000
  slices_S500000x2x1_S500000x1x1_0_1_0 : S500000x2x1.Slices ![0, 1, 0] S500000x1x1
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x8_S100000x8_1_0_0_1_n_n_wf : DotDims.WF S100000x16 S16x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S100000x8_S8x1_S100000x1_1_0_0_1_n_n_wf : DotDims.WF S100000x8 S8x1 S100000x1 [1] [0] [0] [1] [] []
  gather_S100000x1_S500000x2x1_S500000x2x1_2_0_n_n_0_2_11_wf : GatherDims.WF S100000x1 S500000x2x1 S500000x2x1 [2] [0] [] [0] [] 2 ![1, 1]

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S100000x8_S8x1_S100000x1_1_0_0_1_n_n : DotDims S100000x8 S8x1 S100000x1 where
  lhsContracting := [1]
  rhsContracting := [0]
  lhsNonContracting := [0]
  rhsNonContracting := [1]
  lhsBatch := []
  rhsBatch := []
  wf := dot_S100000x8_S8x1_S100000x1_1_0_0_1_n_n_wf
def gather_S100000x1_S500000x2x1_S500000x2x1_2_0_n_n_0_2_11 : GatherDims S100000x1 S500000x2x1 S500000x2x1 where
  offsetDims := [2]
  collapsedSliceDims := [0]
  operandBatchingDims := []
  startIndicesBatchingDims := []
  startIndexMap := [0]
  indexVectorDim := 2
  sliceSizes := ![1, 1]
  wf := gather_S100000x1_S500000x2x1_S500000x2x1_2_0_n_n_0_2_11_wf

class Facts : Prop extends Facts₀ where

variable [Facts]
-- ==== Proof.KernelRun.lean ====
/-
  The idealized program's run with its result named.

  @main is nine segments: host operations, the first node stage, host operations (gather and segment sum), the second
  node stage, host operations again, the last node stage, and the closing host operations that pair the node scores.
  The run's thread state ends holding every unscoped buffer at the contents W9, the fold of the nine segments from the
  launch memory. The frame reads the nine argument buffers out of that state; here the result buffer is read out of it
  as well: after every weakly fair execution the result buffer holds W9 at its reference, and the arguments are as
  launched.
-/
import proofs.«171408_j12773232738731_2_alg».proof.Proof.Gen.KernelIdeal.Frame

set_option maxRecDepth 16384

noncomputable section

namespace Cert.KernelIdeal.RunValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents, and the argument buffers as launched. -/
theorem run_values : θ_run defs (onTc (τ := τ) (main (F := F))) ⟨m, fun _ => 0, ρ⟩ (fun r => ∀ c : Dev nD,
      r.2.mem ((c.tc : Thread nD τ).loc main_v53) = W9 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v53 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.RunValues

end
-- ==== Proof.Stages.lean ====
/-
  The three dense node stages of a two-layer graph convolution, as functions of whole arrays, any number M of node rows.

  With d the per-node scale (a column [M, 1]):
    stage1 x d W        (n, f) = d n · Σ_k x (n, k) · W (k, f)                                   ([M,128] · [128,16])
    stage2 a d b W      (n, f) = d n · Σ_k (d n · a (n, k) + b k) · W (k, f)                     ([M,16]  · [16,8])
    stage3 a d b W c    (n, f) = logistic (Σ_k (d n · a (n, k) + b k) · W (k, f) + c f)          ([M,8]   · [8,1])
  Each entry depends on row n of the row-indexed operands only, so the stage of a block of rows is the block of the
  stage: stage?_block, which is what lets a grid of row blocks be read as one whole-array function.
-/
import Idealize.ShloMosaic.Lib.ValueIdx
import Idealize.ShloMosaic.PureOps.Ideal

noncomputable section

open scoped BigOperators

namespace Cert.Gcn

open Idealize.ShloMosaic Idealize.ShloMosaic.ValueIdx

/-- Row n of a two-axis index, as a number below M. -/
abbrev rowOf {M C : Nat} (i : (⟨2, ![M, C]⟩ : Shape).Idx) : Fin M := ⟨(i 0).val, idx2_lt0 i⟩
/-- Column f of a two-axis index, as a number below C. -/
abbrev colOf {M C : Nat} (i : (⟨2, ![M, C]⟩ : Shape).Idx) : Fin C := ⟨(i 1).val, idx2_lt1 i⟩

/-- First stage: the feature product, scaled per node. -/
def stage1 {M : Nat} (x : FVec Ideal ⟨2, ![M, 128]⟩ .f32) (d : FVec Ideal ⟨2, ![M, 1]⟩ .f32)
    (W : FVec Ideal ⟨2, ![128, 16]⟩ .f32) : FVec Ideal ⟨2, ![M, 16]⟩ .f32 :=
  fun i => d (ix2 (rowOf i) (0 : Fin 1)) * ∑ k : Fin 128, x (ix2 (rowOf i) k) * W (ix2 k (colOf i))

/-- Second stage: scale the aggregate, add the bias, multiply, scale again. -/
def stage2 {M : Nat} (a : FVec Ideal ⟨2, ![M, 16]⟩ .f32) (d : FVec Ideal ⟨2, ![M, 1]⟩ .f32)
    (b : FVec Ideal ⟨2, ![1, 16]⟩ .f32) (W : FVec Ideal ⟨2, ![16, 8]⟩ .f32) : FVec Ideal ⟨2, ![M, 8]⟩ .f32 :=
  fun i => d (ix2 (rowOf i) (0 : Fin 1)) *
    ∑ k : Fin 16, (d (ix2 (rowOf i) (0 : Fin 1)) * a (ix2 (rowOf i) k) + b (ix2 (0 : Fin 1) k)) * W (ix2 k (colOf i))

/-- Last stage: scale the aggregate, add the bias, multiply, add the output bias, squash. -/
def stage3 {M : Nat} (a : FVec Ideal ⟨2, ![M, 8]⟩ .f32) (d : FVec Ideal ⟨2, ![M, 1]⟩ .f32)
    (b : FVec Ideal ⟨2, ![1, 8]⟩ .f32) (W : FVec Ideal ⟨2, ![8, 1]⟩ .f32) (c : FVec Ideal ⟨2, ![1, 1]⟩ .f32) :
    FVec Ideal ⟨2, ![M, 1]⟩ .f32 :=
  fun i => Ideal.logistic
    ((∑ k : Fin 8, (d (ix2 (rowOf i) (0 : Fin 1)) * a (ix2 (rowOf i) k) + b (ix2 (0 : Fin 1) k)) * W (ix2 k (colOf i)))
      + c (ix2 (0 : Fin 1) (colOf i)))

/-- The first stage of a block of rows is the block of the first stage. -/
theorem stage1_block {M m : Nat} (X : FVec Ideal ⟨2, ![M, 128]⟩ .f32) (D : FVec Ideal ⟨2, ![M, 1]⟩ .f32)
    (W : FVec Ideal ⟨2, ![128, 16]⟩ .f32) (x0 : FVec Ideal ⟨2, ![m, 128]⟩ .f32) (x1 : FVec Ideal ⟨2, ![m, 1]⟩ .f32)
    (x2 : FVec Ideal ⟨2, ![128, 16]⟩ .f32) (p : Fin m) (P : Fin M) (q : Fin 16)
    (h0 : ∀ k : Fin 128, x0 (ix2 p k) = X (ix2 P k)) (h1 : x1 (ix2 p (0 : Fin 1)) = D (ix2 P (0 : Fin 1))) (h2 : x2 = W) :
    stage1 x0 x1 x2 (ix2 p q) = stage1 X D W (ix2 P q) := by
  subst h2
  show x1 (ix2 p (0 : Fin 1)) * ∑ k : Fin 128, x0 (ix2 p k) * x2 (ix2 k q)
    = D (ix2 P (0 : Fin 1)) * ∑ k : Fin 128, X (ix2 P k) * x2 (ix2 k q)
  rw [h1]
  exact congrArg _ (Finset.sum_congr rfl fun k _ => by rw [h0 k])

/-- The second stage of a block of rows is the block of the second stage. -/
theorem stage2_block {M m : Nat} (A : FVec Ideal ⟨2, ![M, 16]⟩ .f32) (D : FVec Ideal ⟨2, ![M, 1]⟩ .f32)
    (B : FVec Ideal ⟨2, ![1, 16]⟩ .f32) (W : FVec Ideal ⟨2, ![16, 8]⟩ .f32)
    (x0 : FVec Ideal ⟨2, ![m, 16]⟩ .f32) (x1 : FVec Ideal ⟨2, ![m, 1]⟩ .f32)
    (x2 : FVec Ideal ⟨2, ![1, 16]⟩ .f32) (x3 : FVec Ideal ⟨2, ![16, 8]⟩ .f32) (p : Fin m) (P : Fin M) (q : Fin 8)
    (h0 : ∀ k : Fin 16, x0 (ix2 p k) = A (ix2 P k)) (h1 : x1 (ix2 p (0 : Fin 1)) = D (ix2 P (0 : Fin 1)))
    (h2 : x2 = B) (h3 : x3 = W) :
    stage2 x0 x1 x2 x3 (ix2 p q) = stage2 A D B W (ix2 P q) := by
  subst h2; subst h3
  show x1 (ix2 p (0 : Fin 1)) * ∑ k : Fin 16, (x1 (ix2 p (0 : Fin 1)) * x0 (ix2 p k) + x2 (ix2 (0 : Fin 1) k)) * x3 (ix2 k q)
    = D (ix2 P (0 : Fin 1)) * ∑ k : Fin 16, (D (ix2 P (0 : Fin 1)) * A (ix2 P k) + x2 (ix2 (0 : Fin 1) k)) * x3 (ix2 k q)
  rw [h1]
  exact congrArg _ (Finset.sum_congr rfl fun k _ => by rw [h0 k])

/-- The last stage of a block of rows is the block of the last stage. -/
theorem stage3_block {M m : Nat} (A : FVec Ideal ⟨2, ![M, 8]⟩ .f32) (D : FVec Ideal ⟨2, ![M, 1]⟩ .f32)
    (B : FVec Ideal ⟨2, ![1, 8]⟩ .f32) (W : FVec Ideal ⟨2, ![8, 1]⟩ .f32) (Cb : FVec Ideal ⟨2, ![1, 1]⟩ .f32)
    (x0 : FVec Ideal ⟨2, ![m, 8]⟩ .f32) (x1 : FVec Ideal ⟨2, ![m, 1]⟩ .f32)
    (x2 : FVec Ideal ⟨2, ![1, 8]⟩ .f32) (x3 : FVec Ideal ⟨2, ![8, 1]⟩ .f32) (x4 : FVec Ideal ⟨2, ![1, 1]⟩ .f32)
    (p : Fin m) (P : Fin M) (q : Fin 1)
    (h0 : ∀ k : Fin 8, x0 (ix2 p k) = A (ix2 P k)) (h1 : x1 (ix2 p (0 : Fin 1)) = D (ix2 P (0 : Fin 1)))
    (h2 : x2 = B) (h3 : x3 = W) (h4 : x4 = Cb) :
    stage3 x0 x1 x2 x3 x4 (ix2 p q) = stage3 A D B W Cb (ix2 P q) := by
  subst h2; subst h3; subst h4
  show Ideal.logistic ((∑ k : Fin 8, (x1 (ix2 p (0 : Fin 1)) * x0 (ix2 p k) + x2 (ix2 (0 : Fin 1) k)) * x3 (ix2 k q))
      + x4 (ix2 (0 : Fin 1) q))
    = Ideal.logistic ((∑ k : Fin 8, (D (ix2 P (0 : Fin 1)) * A (ix2 P k) + x2 (ix2 (0 : Fin 1) k)) * x3 (ix2 k q))
      + x4 (ix2 (0 : Fin 1) q))
  rw [h1]
  exact congrArg (fun s => Ideal.logistic (s + x4 (ix2 (0 : Fin 1) q))) (Finset.sum_congr rfl fun k _ => by rw [h0 k])

end Cert.Gcn

end
-- ==== Proof.Values.lean ====
/-
  The arrays the idealized program computes between its node stages, as functions of the argument arrays.

  From the edge list e : [2, 3200000] the program forms the source and target ids with one self loop per node appended
  (srcIds, dstIds : [3300000]), the degree of every node as the segment sum of ones over the target ids, and the
  per-node scale d = 1 / sqrt(degree) where the degree is positive, 0 elsewhere (scale; as a column, scaleCol). A
  neighbourhood sum of node rows h (aggregate16 / aggregate8) gathers row srcIds r of h for every edge r — negative ids
  wrapped once by the node count, then clamped by the gather — and adds it into row dstIds r of a zero table (ids
  outside the table drop their edge). The last lines pair node scores: pairScores z p (i) = z[p (i, 0)] · z[p (i, 1)].
-/
import proofs.«171408_j12773232738731_2_alg».proof.Proof.Gen.KernelIdeal
import proofs.«171408_j12773232738731_2_alg».proof.Proof.Stages

noncomputable section

namespace Cert.KernelIdeal.Values

open Cert.KernelIdeal Cert.KernelIdeal.Gen Idealize.ShloMosaic Cert.Gcn

/-- Source ids: row 0 of the edge list, then every node once. -/
def srcIds (e : IVec S2x3200000 32) : IVec S3300000 32 :=
  concatenate S3300000 0
    [⟨S3200000, shapeCast S3200000 (extractStridedSlice S1x3200000 ![0, 0] e slices_S2x3200000_S1x3200000_0_0) shapeCasts_S1x3200000_S3200000⟩,
     ⟨S100000, iotaInDim S100000 32 0⟩] concatenates_S3200000_S100000_S3300000_d0

/-- Target ids: row 1 of the edge list, then every node once. -/
def dstIds (e : IVec S2x3200000 32) : IVec S3300000 32 :=
  concatenate S3300000 0
    [⟨S3200000, shapeCast S3200000 (extractStridedSlice S1x3200000 ![1, 0] e slices_S2x3200000_S1x3200000_1_0) shapeCasts_S1x3200000_S3200000⟩,
     ⟨S100000, iotaInDim S100000 32 0⟩] concatenates_S3200000_S100000_S3300000_d0

/-- The ids as a column, the form a scatter reads them in. -/
def idCol (a : IVec S3300000 32) : IVec S3300000x1 32 :=
  broadcastInDim S3300000x1 ![0] bcast_S3300000_S3300000x1_0 a

/-- The ids with the negative ones wrapped once by the node count, as a column: the form a gather reads them in. -/
def wrapCol (a : IVec S3300000 32) : IVec S3300000x1 32 :=
  broadcastInDim S3300000x1 ![0] bcast_S3300000_S3300000x1_0
    (select (cmpi .slt a (broadcastInDim S3300000 ![] bcast_S_S3300000 (constantI S_ 32 0#32)))
      (addi a (broadcastInDim S3300000 ![] bcast_S_S3300000 (constantI S_ 32 100000#32))) a)

/-- The degree of every node: the segment sum of ones over the target ids. -/
def degree (e : IVec S2x3200000 32) : FVec Ideal S100000 .f32 :=
  Host.scatterAdd scatter_S100000_S3300000x1_S3300000_n_0_0_1
    (broadcastInDim S100000 ![] bcast_S_S100000 (constant S_ .f32 0x00000000#32))
    (idCol (dstIds e))
    (broadcastInDim S3300000 ![] bcast_S_S3300000 (constant S_ .f32 0x3F800000#32))

/-- The per-node scale: the reciprocal square root of a positive degree, zero elsewhere. -/
def scale (e : IVec S2x3200000 32) : FVec Ideal S100000 .f32 :=
  select (cmpf .ogt (degree e) (broadcastInDim S100000 ![] bcast_S_S100000 (constant S_ .f32 0x00000000#32)))
    (Host.rsqrt (degree e))
    (broadcastInDim S100000 ![] bcast_S_S100000 (id (constant (F := Ideal) S_ .f32 0x00000000#32)))

/-- The scale as a column. -/
def scaleCol (e : IVec S2x3200000 32) : FVec Ideal S100000x1 .f32 :=
  shapeCast S100000x1 (scale e) shapeCasts_S100000_S100000x1

/-- The neighbourhood sum of 16-wide node rows. -/
def aggregate16 (e : IVec S2x3200000 32) (h : FVec Ideal S100000x16 .f32) : FVec Ideal S100000x16 .f32 :=
  Host.scatterAdd scatter_S100000x16_S3300000x1_S3300000x16_1_0_0_1
    (broadcastInDim S100000x16 ![] bcast_S_S100000x16 (constant S_ .f32 0x00000000#32))
    (idCol (dstIds e))
    (Host.gather gather_S100000x16_S3300000x1_S3300000x16_1_0_n_n_0_1_116 h (wrapCol (srcIds e)))

/-- The neighbourhood sum of 8-wide node rows. -/
def aggregate8 (e : IVec S2x3200000 32) (h : FVec Ideal S100000x8 .f32) : FVec Ideal S100000x8 .f32 :=
  Host.scatterAdd scatter_S100000x8_S3300000x1_S3300000x8_1_0_0_1
    (broadcastInDim S100000x8 ![] bcast_S_S100000x8 (constant S_ .f32 0x00000000#32))
    (idCol (dstIds e))
    (Host.gather gather_S100000x8_S3300000x1_S3300000x8_1_0_n_n_0_1_18 h (wrapCol (srcIds e)))

/-- The closing lines: the scores of the two nodes of every pair, multiplied. -/
def pairScores (z : FVec Ideal S100000x1 .f32) (p : IVec S500000x2 32) : FVec Ideal S500000 .f32 :=
  let g : FVec Ideal S500000x2x1 .f32 :=
    Host.gather gather_S100000x1_S500000x2x1_S500000x2x1_2_0_n_n_0_2_11 z
      (broadcastInDim S500000x2x1 ![0, 1] bcast_S500000x2_S500000x2x1_0_1
        (select (cmpi .slt p (broadcastInDim S500000x2 ![] bcast_S_S500000x2 (constantI S_ 32 0#32)))
          (addi p (broadcastInDim S500000x2 ![] bcast_S_S500000x2 (constantI S_ 32 100000#32))) p))
  mulf (shapeCast S500000 (extractStridedSlice S500000x1x1 ![0, 0, 0] g slices_S500000x2x1_S500000x1x1_0_0_0) shapeCasts_S500000x1x1_S500000)
    (shapeCast S500000 (extractStridedSlice S500000x1x1 ![0, 1, 0] g slices_S500000x2x1_S500000x1x1_0_1_0) shapeCasts_S500000x1x1_S500000)

/-- The first stage's output: the scaled feature product of every node. -/
def rows1 (x0 : FVec Ideal S100000x128 .f32) (e : IVec S2x3200000 32) (x3 : FVec Ideal S128x16 .f32) : FVec Ideal S100000x16 .f32 :=
  stage1 (M := 100000) x0 (scaleCol e) x3

/-- The second stage's output, from the neighbourhood sums of the first. -/
def rows2 (x0 : FVec Ideal S100000x128 .f32) (e : IVec S2x3200000 32) (x3 : FVec Ideal S128x16 .f32)
    (x4 : FVec Ideal S16 .f32) (x5 : FVec Ideal S16x8 .f32) : FVec Ideal S100000x8 .f32 :=
  stage2 (M := 100000) (aggregate16 e (rows1 x0 e x3)) (scaleCol e) (shapeCast S1x16 x4 shapeCasts_S16_S1x16) x5

/-- The node scores, from the neighbourhood sums of the second stage. -/
def scores (x0 : FVec Ideal S100000x128 .f32) (e : IVec S2x3200000 32) (x3 : FVec Ideal S128x16 .f32)
    (x4 : FVec Ideal S16 .f32) (x5 : FVec Ideal S16x8 .f32) (x6 : FVec Ideal S8 .f32) (x7 : FVec Ideal S8x1 .f32)
    (x8 : FVec Ideal S1 .f32) : FVec Ideal S100000x1 .f32 :=
  stage3 (M := 100000) (aggregate8 e (rows2 x0 e x3 x4 x5)) (scaleCol e) (shapeCast S1x8 x6 shapeCasts_S8_S1x8) x7
    (shapeCast S1x1 x8 shapeCasts_S1_S1x1)

end Cert.KernelIdeal.Values

end
-- ==== Proof.LibMatmul.lean ====
/-
  A plain M × K by K × N matrix product into a zero accumulator, read at one entry: at the exact (extended real) values the
  entry (a, b) is the sum over the contracted coordinate c of A (a, c) · B (c, b) — no rounding and no chunk order left in it.
-/
import Idealize.ShloMosaic.Lib.ValueIdx
import Idealize.ShloMosaic.PureOps.Ideal.Laws

noncomputable section

open scoped BigOperators

namespace Cert.LibMatmul

open Idealize.ShloMosaic Idealize.ShloMosaic.ValueIdx

/-- The product of an `M × K` by a `K × N` matrix accumulated into the zero splat, at entry `(a, b)`, is
    `∑ c, A (a, c) · B (c, b)` over the extended reals. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibMatmul

end
-- ==== Proof.LibTransposeRepeat.lean ====
/-
  Three layout facts read at an entry, at the exact values: a transposed N x K matrix at (c, n) is the matrix at (n, c);
  an M x 1 column repeated across N columns (a broadcast to M x N) reads the column at its row; a 1 x N row repeated down M
  rows reads the row at its column. Together with a matrix product read as a sum they turn "x times W transposed plus a
  bias row" into sum over c of x(a, c) * W(b, c) + bias(b).
-/
import Idealize.ShloMosaic.Lib.ValueIdx
import Idealize.ShloMosaic.Lib.Pipeline.Value
import Idealize.ShloMosaic.PureOps.Ideal

noncomputable section

namespace Cert.LibTransposeRepeat

open Idealize.ShloMosaic Idealize.ShloMosaic.ValueIdx

/-- A transposed N x K matrix at (c, n) is the matrix at (n, c). -/
theorem transposed_apply {N K : Nat} {φ : FTy} (W : FVec Ideal ⟨2, ![N, K]⟩ φ)
    (h : (⟨2, ![N, K]⟩ : Shape).Transposes [1, 0] ⟨2, ![K, N]⟩) (c : Fin K) (n : Fin N) :
    transpose ⟨2, ![K, N]⟩ [1, 0] W h (ix2 c n) = W (ix2 n c) :=
  transpose_apply [1, 0] W h (ix2 c n) (ix2 n c) (fun b' => by
    match b' with
    | ⟨0, _⟩ => rfl
    | ⟨1, _⟩ => rfl)

/-- An M x 1 column repeated across N columns reads the column at its row. -/
theorem colRepeat_apply {M N : Nat} {φ : FTy} (v : FVec Ideal ⟨2, ![M, 1]⟩ φ)
    (h : (⟨2, ![M, 1]⟩ : Shape).Broadcasts ⟨2, ![M, N]⟩) (a : Fin M) (b : Fin N) :
    broadcastTo ⟨2, ![M, N]⟩ v h (ix2 a b) = v (ix2 a (0 : Fin 1)) :=
  broadcastTo_apply v h (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])

/-- A 1 x N row repeated down M rows reads the row at its column. -/
theorem rowRepeat_apply {M N : Nat} {φ : FTy} (v : FVec Ideal ⟨2, ![1, N]⟩ φ)
    (h : (⟨2, ![1, N]⟩ : Shape).Broadcasts ⟨2, ![M, N]⟩) (a : Fin M) (b : Fin N) :
    broadcastTo ⟨2, ![M, N]⟩ v h (ix2 a b) = v (ix2 (0 : Fin 1) b) :=
  broadcastTo_apply v h (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)

end Cert.LibTransposeRepeat

end
-- ==== Proof.Payloads.lean ====
/-
  What each kernel body computes from its loaded blocks, at the exact values: the body of the first node stage is
  stage1 of its blocks, the second stage2, the last stage3 (Proof/Stages.lean), entry by entry. A change of float format
  is the identity here; the matrix unit's product into a zero accumulator is the plain sum of products; a column
  [m, 1] broadcast across columns reads the column at its row, a row [1, n] broadcast down rows reads the row at its
  column; the logistic is the exact one.
-/
import proofs.«171408_j12773232738731_2_alg».proof.Proof.Gen.KernelIdeal.Skeleton
import proofs.«171408_j12773232738731_2_alg».proof.Proof.Stages
import proofs.«171408_j12773232738731_2_alg».proof.Proof.LibMatmul
import proofs.«171408_j12773232738731_2_alg».proof.Proof.LibTransposeRepeat
import Idealize.ShloMosaic.Lib.Pipeline.Value
import Idealize.ShloMosaic.Lib.ValueIdx

noncomputable section

open scoped BigOperators

namespace Cert.KernelIdeal.Payloads

open Cert.KernelIdeal Cert.KernelIdeal.Gen Idealize.ShloMosaic Idealize.ShloMosaic.ValueIdx Cert.Gcn

/-- The first body: the scale column times the product of the feature block with the weights. -/
theorem pay0_eq (v0 : FVec Ideal S5000x128 .f32) (v2 : FVec Ideal S128x16 .f32) (v5 : FVec Ideal S5000x1 .f32) :
    k0_pay1 (F := Ideal) v0 v2 v5 = stage1 (M := 5000) v0 v5 v2 := by
  funext j
  obtain ⟨p, q, rfl⟩ : ∃ (p : Fin 5000) (q : Fin 16), j = ix2 p q := ⟨j 0, j 1, eq_ix2 j⟩
  unfold k0_pay1
  show broadcastTo S5000x16 (shapeCast S5000x1 v5 shapeCasts_S5000x1_S5000x1) broadcasts_S5000x1_S5000x16 (ix2 p q)
      * FloatOps.matmul dot_S5000x128_S128x16_S5000x16_1_0_0_1_n_n none
          (truncf (F := Ideal) .bf16 v0 bitsLt_bf16_f32) (truncf (F := Ideal) .bf16 v2 bitsLt_bf16_f32)
          (constant (F := Ideal) S5000x16 .f32 0x00000000#32) (ix2 p q)
    = v5 (ix2 p (0 : Fin 1)) * ∑ k : Fin 128, v0 (ix2 p k) * v2 (ix2 k q)
  rw [shapeCast_self, Cert.LibTransposeRepeat.colRepeat_apply]
  exact congrArg _ (Cert.LibMatmul.matmul_plain_zero_apply (M := 5000) (K := 128) (N := 16) none v0 v2 p q)

/-- The second body: scale the aggregate block, add the bias row, multiply by the weights, scale again. -/
theorem pay1_eq (v0 : FVec Ideal S5000x1 .f32) (v2 : FVec Ideal S5000x16 .f32) (v6 : FVec Ideal S1x16 .f32)
    (v11 : FVec Ideal S16x8 .f32) :
    k1_pay1 (F := Ideal) v0 v2 v6 v11 = stage2 (M := 5000) v2 v0 v6 v11 := by
  funext j
  obtain ⟨p, q, rfl⟩ : ∃ (p : Fin 5000) (q : Fin 8), j = ix2 p q := ⟨j 0, j 1, eq_ix2 j⟩
  unfold k1_pay1
  show broadcastTo S5000x8 (shapeCast S5000x1 v0 shapeCasts_S5000x1_S5000x1) broadcasts_S5000x1_S5000x8 (ix2 p q)
      * FloatOps.matmul dot_S5000x16_S16x8_S5000x8_1_0_0_1_n_n none
          (truncf (F := Ideal) .bf16
            (addf (mulf (broadcastTo S5000x16 (shapeCast S5000x1 v0 shapeCasts_S5000x1_S5000x1) broadcasts_S5000x1_S5000x16)
                (shapeCast S5000x16 v2 shapeCasts_S5000x16_S5000x16))
              (broadcastTo S5000x16 (shapeCast S1x16 v6 shapeCasts_S1x16_S1x16) broadcasts_S1x16_S5000x16)) bitsLt_bf16_f32)
          (truncf (F := Ideal) .bf16 v11 bitsLt_bf16_f32)
          (constant (F := Ideal) S5000x8 .f32 0x00000000#32) (ix2 p q)
    = v0 (ix2 p (0 : Fin 1)) * ∑ k : Fin 16, (v0 (ix2 p (0 : Fin 1)) * v2 (ix2 p k) + v6 (ix2 (0 : Fin 1) k)) * v11 (ix2 k q)
  rw [shapeCast_self, shapeCast_self, shapeCast_self, Cert.LibTransposeRepeat.colRepeat_apply]
  refine congrArg _ ((Cert.LibMatmul.matmul_plain_zero_apply (M := 5000) (K := 16) (N := 8) none _ v11 p q).trans ?_)
  refine Finset.sum_congr rfl fun k _ => ?_
  show (broadcastTo S5000x16 v0 broadcasts_S5000x1_S5000x16 (ix2 p k) * v2 (ix2 p k)
      + broadcastTo S5000x16 v6 broadcasts_S1x16_S5000x16 (ix2 p k)) * v11 (ix2 k q) = _
  rw [Cert.LibTransposeRepeat.colRepeat_apply, Cert.LibTransposeRepeat.rowRepeat_apply]

/-- The last body: scale the aggregate block, add the bias row, multiply by the weights, add the output bias, squash. -/
theorem pay2_eq (v0 : FVec Ideal S5000x1 .f32) (v2 : FVec Ideal S5000x8 .f32) (v6 : FVec Ideal S1x8 .f32)
    (v11 : FVec Ideal S8x1 .f32) (v14 : FVec Ideal S1x1 .f32) :
    k2_pay1 (F := Ideal) v0 v2 v6 v11 v14 = stage3 (M := 5000) v2 v0 v6 v11 v14 := by
  funext j
  obtain ⟨p, q, rfl⟩ : ∃ (p : Fin 5000) (q : Fin 1), j = ix2 p q := ⟨j 0, j 1, eq_ix2 j⟩
  unfold k2_pay1
  show Ideal.logistic (FloatOps.matmul dot_S5000x8_S8x1_S5000x1_1_0_0_1_n_n none
          (truncf (F := Ideal) .bf16
            (addf (mulf (broadcastTo S5000x8 (shapeCast S5000x1 v0 shapeCasts_S5000x1_S5000x1) broadcasts_S5000x1_S5000x8)
                (shapeCast S5000x8 v2 shapeCasts_S5000x8_S5000x8))
              (broadcastTo S5000x8 (shapeCast S1x8 v6 shapeCasts_S1x8_S1x8) broadcasts_S1x8_S5000x8)) bitsLt_bf16_f32)
          (truncf (F := Ideal) .bf16 v11 bitsLt_bf16_f32)
          (constant (F := Ideal) S5000x1 .f32 0x00000000#32) (ix2 p q)
        + broadcastTo S5000x1 (shapeCast S1x1 v14 shapeCasts_S1x1_S1x1) broadcasts_S1x1_S5000x1 (ix2 p q))
    = Ideal.logistic ((∑ k : Fin 8, (v0 (ix2 p (0 : Fin 1)) * v2 (ix2 p k) + v6 (ix2 (0 : Fin 1) k)) * v11 (ix2 k q))
        + v14 (ix2 (0 : Fin 1) q))
  rw [shapeCast_self, shapeCast_self, shapeCast_self, shapeCast_self, Cert.LibTransposeRepeat.rowRepeat_apply]
  refine congrArg (fun s => Ideal.logistic (s + v14 (ix2 (0 : Fin 1) q))) ?_
  refine (Cert.LibMatmul.matmul_plain_zero_apply (M := 5000) (K := 8) (N := 1) none _ v11 p q).trans ?_
  refine Finset.sum_congr rfl fun k _ => ?_
  show (broadcastTo S5000x8 v0 broadcasts_S5000x1_S5000x8 (ix2 p k) * v2 (ix2 p k)
      + broadcastTo S5000x8 v6 broadcasts_S1x8_S5000x8 (ix2 p k)) * v11 (ix2 k q) = _
  rw [Cert.LibTransposeRepeat.colRepeat_apply, Cert.LibTransposeRepeat.rowRepeat_apply]

end Cert.KernelIdeal.Payloads

end
-- ==== Proof.Region0.lean ====
/-
  The first node stage as ONE function of whole arrays.

  The first pallas_call walks 20 row blocks of 5000 nodes. At grid point t the body reads rows 5000 t … 5000 t + 4999 of
  the features and of the scale column, and the whole weight matrix, and writes block t of the output; the blocks tile
  the 100000 output rows. Each output entry depends on its own row only (stage1_block), so whatever the buffers hold
  when the call is entered (V), the output array ends holding stage1 of the three input arrays, entry by entry.
-/
import proofs.«171408_j12773232738731_2_alg».proof.Proof.Gen.KernelIdeal.Frame
import proofs.«171408_j12773232738731_2_alg».proof.Proof.Payloads
import Idealize.ShloMosaic.Lib.Pipeline.Value

set_option maxRecDepth 16384

noncomputable section

namespace Cert.KernelIdeal.Region0

open Cert.KernelIdeal Cert.KernelIdeal.Gen Cert.KernelIdeal.Payloads Cert.Gcn
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-indexed windows sit at block row t, the weights at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block row is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

/-- WHAT POINT t WRITES BACK is block t of stage1 of the arrays as the call finds them. -/
theorem flushed_eq (c : Dev nD) (t : Fin cfg0.N) :
    (dat0 V c).flushed 3 t = ((cfg0.win 3).blk t).view.read (Elt Ideal)
      (stage1 (M := 100000) (V c main_arg0) (V c main_v15) (V c main_arg3)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x16) hz, View.ld_unit_zero (S := S5000x1) hz]
  rw [pay0_eq]
  obtain ⟨e00, e01, e10, e11, e20, e21, e30, e31⟩ := idx_facts t
  have ht : t.val < 20 := by have h := t.isLt; have hN : cfg0.N = 20 := N_0; omega
  funext j
  obtain ⟨p, q, rfl⟩ : ∃ (p : Fin 5000) (q : Fin 16), j = ix2 p q := ⟨j 0, j 1, eq_ix2 j⟩
  show stage1 (M := 5000) (iblk0 V c 0 t) (iblk0 V c 1 t) (iblk0 V c 2 t) (ix2 p q)
    = stage1 (M := 100000) (V c main_arg0) (V c main_v15) (V c main_arg3) (((cfg0.win 3).blk t).view.emb (ix2 p q))
  have hemb : ((cfg0.win 3).blk t).view.emb (ix2 p q) = ix2 (⟨t.val * 5000 + p.val, by omega⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 16 + 1 * q.val = q.val; omega
  rw [hemb]
  refine stage1_block _ _ _ _ _ _ p ⟨t.val * 5000 + p.val, by omega⟩ q (fun k => ?_) ?_ ?_
  · show V c main_arg0 (((cfg0.win 0).blk t).view.emb (ix2 p k)) = V c main_arg0 (ix2 (⟨t.val * 5000 + p.val, by omega⟩ : Fin 100000) k)
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_v15 (((cfg0.win 1).blk t).view.emb (ix2 p (0 : Fin 1))) = V c main_v15 (ix2 (⟨t.val * 5000 + p.val, by omega⟩ : Fin 100000) (0 : Fin 1))
    refine congrArg _ ?_
    funext a; apply Fin.ext
    match a with
    | ⟨0, _⟩ => show win0_1.index t (0 : Fin 2) * 5000 + 1 * p.val = t.val * 5000 + p.val; omega
    | ⟨1, _⟩ => show win0_1.index t (1 : Fin 2) * 1 + 1 * 0 = 0; omega
  · funext y
    obtain ⟨k, q', rfl⟩ : ∃ (k : Fin 128) (q' : Fin 16), y = ix2 k q' := ⟨y 0, y 1, eq_ix2 y⟩
    show V c main_arg3 (((cfg0.win 2).blk t).view.emb (ix2 k q')) = V c main_arg3 (ix2 k q')
    refine congrArg _ ?_
    funext a; apply Fin.ext
    match a with
    | ⟨0, _⟩ => show win0_2.index t (0 : Fin 2) * 128 + 1 * k.val = k.val; omega
    | ⟨1, _⟩ => show win0_2.index t (1 : Fin 2) * 16 + 1 * q'.val = q'.val; omega

/-- An index of the output array is in point t's block iff each coordinate is in the block's range on its axis. -/
theorem mem_blk (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v16).slice (win0_3.rect t)).set ↔ _
  rw [View.set_slice_whole, Rect.mem_set_unit]
  exact Iff.rfl

/-- The blocks tile the output: row n is in block n / 5000. -/
theorem cover (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 16 ≤ (i 1).val ∧ (i 1).val < win0_3.index t (1 : Fin 2) * 16 + 16; omega

/-- THE OUTPUT ARRAY after the call: stage1 of the three input arrays as the call finds them. -/
theorem final (c : Dev nD) :
    (dat0 V c).arrAt 3 cfg0.N = stage1 (M := 100000) (V c main_arg0) (V c main_v15) (V c main_arg3) :=
  (dat0 V c).arrAt_eq_of_cover 3 _ (fun t _ => flushed_eq V c t) cover

end Cert.KernelIdeal.Region0

end
-- ==== Proof.Region1.lean ====
/-
  The second node stage as ONE function of whole arrays.

  The second pallas_call walks 20 row blocks of 5000 nodes. At grid point t the body reads rows 5000 t … 5000 t + 4999 of
  the aggregate and of the scale column, and the whole bias row and weight matrix, and writes block t of the output; the
  blocks tile the 100000 output rows. Each output entry depends on its own row only (stage2_block), so whatever the
  buffers hold when the call is entered (V), the output array ends holding stage2 of the four input arrays.
-/
import proofs.«171408_j12773232738731_2_alg».proof.Proof.Gen.KernelIdeal.Frame
import proofs.«171408_j12773232738731_2_alg».proof.Proof.Payloads
import Idealize.ShloMosaic.Lib.Pipeline.Value

set_option maxRecDepth 16384

noncomputable section

namespace Cert.KernelIdeal.Region1

open Cert.KernelIdeal Cert.KernelIdeal.Gen Cert.KernelIdeal.Payloads Cert.Gcn
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-indexed windows sit at block row t, the bias and the weights at
    block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every block row is some point's. -/
theorem idx_onto : ∀ q0 : Fin 20, ∃ t : Fin cfg1.N, win1_4.index t = ![q0.val, 0] :=
  (by decide +kernel : ∀ q0 : Fin 20, ∃ t : Fin grid1.N, win1_4.index t = ![q0.val, 0])

/-- WHAT POINT t WRITES BACK is block t of stage2 of the arrays as the call finds them. -/
theorem flushed_eq (c : Dev nD) (t : Fin cfg1.N) :
    (dat1 V c).flushed 4 t = ((cfg1.win 4).blk t).view.read (Elt Ideal)
      (stage2 (M := 100000) (V c main_v26) (V c main_v15) (V c main_v27) (V c main_arg5)) := by
  show (cfg1.win 4).cut (grid1.coords t) ((dat1 V c).after 4 t) = _
  rw [after1_4]
  unfold out1_4
  rw [View.canon_unit_zero hz]
  simp only [View.ld_unit_zero (S := S5000x16) hz, View.ld_unit_zero (S := S5000x1) hz, View.ld_unit_zero (S := S1x16) hz,
    View.ld_unit_zero (S := S16x8) hz]
  rw [pay1_eq]
  obtain ⟨e00, e01, e10, e11, e20, e21, e30, e31, e40, e41⟩ := idx_facts t
  have ht : t.val < 20 := by have h := t.isLt; have hN : cfg1.N = 20 := N_1; omega
  funext j
  obtain ⟨p, q, rfl⟩ : ∃ (p : Fin 5000) (q : Fin 8), j = ix2 p q := ⟨j 0, j 1, eq_ix2 j⟩
  show stage2 (M := 5000) (iblk1 V c 0 t) (iblk1 V c 1 t) (iblk1 V c 2 t) (iblk1 V c 3 t) (ix2 p q)
    = stage2 (M := 100000) (V c main_v26) (V c main_v15) (V c main_v27) (V c main_arg5) (((cfg1.win 4).blk t).view.emb (ix2 p q))
  have hemb : ((cfg1.win 4).blk t).view.emb (ix2 p q) = ix2 (⟨t.val * 5000 + p.val, by omega⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 8 + 1 * q.val = q.val; omega
  rw [hemb]
  refine stage2_block _ _ _ _ _ _ _ _ p ⟨t.val * 5000 + p.val, by omega⟩ q (fun k => ?_) ?_ ?_ ?_
  · show V c main_v26 (((cfg1.win 0).blk t).view.emb (ix2 p k)) = V c main_v26 (ix2 (⟨t.val * 5000 + p.val, by omega⟩ : Fin 100000) k)
    refine congrArg _ ?_
    funext a; apply Fin.ext
    match a with
    | ⟨0, _⟩ => show win1_0.index t (0 : Fin 2) * 5000 + 1 * p.val = t.val * 5000 + p.val; omega
    | ⟨1, _⟩ => show win1_0.index t (1 : Fin 2) * 16 + 1 * k.val = k.val; omega
  · show V c main_v15 (((cfg1.win 1).blk t).view.emb (ix2 p (0 : Fin 1))) = V c main_v15 (ix2 (⟨t.val * 5000 + p.val, by omega⟩ : Fin 100000) (0 : Fin 1))
    refine congrArg _ ?_
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  · funext y
    obtain ⟨z, k, rfl⟩ : ∃ (z : Fin 1) (k : Fin 16), y = ix2 z k := ⟨y 0, y 1, eq_ix2 y⟩
    show V c main_v27 (((cfg1.win 2).blk t).view.emb (ix2 z k)) = V c main_v27 (ix2 z k)
    refine congrArg _ ?_
    funext a; apply Fin.ext
    match a with
    | ⟨0, _⟩ => show win1_2.index t (0 : Fin 2) * 1 + 1 * z.val = z.val; omega
    | ⟨1, _⟩ => show win1_2.index t (1 : Fin 2) * 16 + 1 * k.val = k.val; omega
  · funext y
    obtain ⟨k, q', rfl⟩ : ∃ (k : Fin 16) (q' : Fin 8), y = ix2 k q' := ⟨y 0, y 1, eq_ix2 y⟩
    show V c main_arg5 (((cfg1.win 3).blk t).view.emb (ix2 k q')) = V c main_arg5 (ix2 k q')
    refine congrArg _ ?_
    funext a; apply Fin.ext
    match a with
    | ⟨0, _⟩ => show win1_3.index t (0 : Fin 2) * 16 + 1 * k.val = k.val; omega
    | ⟨1, _⟩ => show win1_3.index t (1 : Fin 2) * 8 + 1 * q'.val = q'.val; omega

/-- An index of the output array is in point t's block iff each coordinate is in the block's range on its axis. -/
theorem mem_blk (t : Fin cfg1.N) (i : S100000x8.Idx) :
    i ∈ ((cfg1.win 4).blk t).view.set ↔ ∀ a : Fin 2, win1_4.index t a * S5000x8.size a ≤ (i a).val ∧ (i a).val < win1_4.index t a * S5000x8.size a + S5000x8.size a := by
  show i ∈ ((View.whole main_v28).slice (win1_4.rect t)).set ↔ _
  rw [View.set_slice_whole, Rect.mem_set_unit]
  exact Iff.rfl

/-- The blocks tile the output: row n is in block n / 5000. -/
theorem cover (i : S100000x8.Idx) : ∃ t : Fin cfg1.N, (cfg1.win 4).flush t = true ∧ i ∈ ((cfg1.win 4).blk t).view.set := by
  have hi0 : (i 0).val < 100000 := (i 0).isLt
  have hi1 : (i 1).val < 8 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 8 ≤ (i 1).val ∧ (i 1).val < win1_4.index t (1 : Fin 2) * 8 + 8; omega

/-- THE OUTPUT ARRAY after the call: stage2 of the four input arrays as the call finds them. -/
theorem final (c : Dev nD) :
    (dat1 V c).arrAt 4 cfg1.N = stage2 (M := 100000) (V c main_v26) (V c main_v15) (V c main_v27) (V c main_arg5) :=
  (dat1 V c).arrAt_eq_of_cover 4 _ (fun t _ => flushed_eq V c t) cover

end Cert.KernelIdeal.Region1

end
-- ==== Proof.Region2.lean ====
/-
  The last node stage as ONE function of whole arrays.

  The third pallas_call walks 20 row blocks of 5000 nodes. At grid point t the body reads rows 5000 t … 5000 t + 4999 of
  the aggregate and of the scale column, and the whole bias row, weight column and output bias, and writes block t of
  the scores; the blocks tile the 100000 rows. Each score depends on its own row only (stage3_block), so whatever the
  buffers hold when the call is entered (V), the score array ends holding stage3 of the five input arrays.
-/
import proofs.«171408_j12773232738731_2_alg».proof.Proof.Gen.KernelIdeal.Frame
import proofs.«171408_j12773232738731_2_alg».proof.Proof.Payloads
import Idealize.ShloMosaic.Lib.Pipeline.Value

set_option maxRecDepth 16384

noncomputable section

namespace Cert.KernelIdeal.Region2

open Cert.KernelIdeal Cert.KernelIdeal.Gen Cert.KernelIdeal.Payloads Cert.Gcn
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-indexed windows sit at block row t, the bias row, the weights and
    the output bias at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block row is some point's. -/
theorem idx_onto : ∀ q0 : Fin 20, ∃ t : Fin cfg2.N, win2_5.index t = ![q0.val, 0] :=
  (by decide +kernel : ∀ q0 : Fin 20, ∃ t : Fin grid2.N, win2_5.index t = ![q0.val, 0])

/-- WHAT POINT t WRITES BACK is block t of stage3 of the arrays as the call finds them. -/
theorem flushed_eq (c : Dev nD) (t : Fin cfg2.N) :
    (dat2 V c).flushed 5 t = ((cfg2.win 5).blk t).view.read (Elt Ideal)
      (stage3 (M := 100000) (V c main_v38) (V c main_v15) (V c main_v39) (V c main_arg7) (V c main_v40)) := by
  show (cfg2.win 5).cut (grid2.coords t) ((dat2 V c).after 5 t) = _
  rw [after2_5]
  unfold out2_5
  rw [View.canon_unit_zero hz]
  simp only [View.ld_unit_zero (S := S5000x8) hz, View.ld_unit_zero (S := S5000x1) hz, View.ld_unit_zero (S := S1x8) hz,
    View.ld_unit_zero (S := S8x1) hz, View.ld_unit_zero (S := S1x1) hz]
  rw [pay2_eq]
  obtain ⟨e00, e01, e10, e11, e20, e21, e30, e31, e40, e41, e50, e51⟩ := idx_facts t
  have ht : t.val < 20 := by have h := t.isLt; have hN : cfg2.N = 20 := N_2; omega
  funext j
  obtain ⟨p, q, rfl⟩ : ∃ (p : Fin 5000) (q : Fin 1), j = ix2 p q := ⟨j 0, j 1, eq_ix2 j⟩
  show stage3 (M := 5000) (iblk2 V c 0 t) (iblk2 V c 1 t) (iblk2 V c 2 t) (iblk2 V c 3 t) (iblk2 V c 4 t) (ix2 p q)
    = stage3 (M := 100000) (V c main_v38) (V c main_v15) (V c main_v39) (V c main_arg7) (V c main_v40) (((cfg2.win 5).blk t).view.emb (ix2 p q))
  have hemb : ((cfg2.win 5).blk t).view.emb (ix2 p q) = ix2 (⟨t.val * 5000 + p.val, by omega⟩ : Fin 100000) q := by
    funext a; apply Fin.ext
    match a with
    | ⟨0, _⟩ => show win2_5.index t (0 : Fin 2) * 5000 + 1 * p.val = t.val * 5000 + p.val; omega
    | ⟨1, _⟩ => show win2_5.index t (1 : Fin 2) * 1 + 1 * q.val = q.val; omega
  rw [hemb]
  refine stage3_block _ _ _ _ _ _ _ _ _ _ p ⟨t.val * 5000 + p.val, by omega⟩ q (fun k => ?_) ?_ ?_ ?_ ?_
  · show V c main_v38 (((cfg2.win 0).blk t).view.emb (ix2 p k)) = V c main_v38 (ix2 (⟨t.val * 5000 + p.val, by omega⟩ : Fin 100000) k)
    refine congrArg _ ?_
    funext a; apply Fin.ext
    match a with
    | ⟨0, _⟩ => show win2_0.index t (0 : Fin 2) * 5000 + 1 * p.val = t.val * 5000 + p.val; omega
    | ⟨1, _⟩ => show win2_0.index t (1 : Fin 2) * 8 + 1 * k.val = k.val; omega
  · show V c main_v15 (((cfg2.win 1).blk t).view.emb (ix2 p (0 : Fin 1))) = V c main_v15 (ix2 (⟨t.val * 5000 + p.val, by omega⟩ : Fin 100000) (0 : Fin 1))
    refine congrArg _ ?_
    funext a; apply Fin.ext
    match a with
    | ⟨0, _⟩ => show win2_1.index t (0 : Fin 2) * 5000 + 1 * p.val = t.val * 5000 + p.val; omega
    | ⟨1, _⟩ => show win2_1.index t (1 : Fin 2) * 1 + 1 * 0 = 0; omega
  · funext y
    obtain ⟨z, k, rfl⟩ : ∃ (z : Fin 1) (k : Fin 8), y = ix2 z k := ⟨y 0, y 1, eq_ix2 y⟩
    show V c main_v39 (((cfg2.win 2).blk t).view.emb (ix2 z k)) = V c main_v39 (ix2 z k)
    refine congrArg _ ?_
    funext a; apply Fin.ext
    match a with
    | ⟨0, _⟩ => show win2_2.index t (0 : Fin 2) * 1 + 1 * z.val = z.val; omega
    | ⟨1, _⟩ => show win2_2.index t (1 : Fin 2) * 8 + 1 * k.val = k.val; omega
  · funext y
    obtain ⟨k, q', rfl⟩ : ∃ (k : Fin 8) (q' : Fin 1), y = ix2 k q' := ⟨y 0, y 1, eq_ix2 y⟩
    show V c main_arg7 (((cfg2.win 3).blk t).view.emb (ix2 k q')) = V c main_arg7 (ix2 k q')
    refine congrArg _ ?_
    funext a; apply Fin.ext
    match a with
    | ⟨0, _⟩ => show win2_3.index t (0 : Fin 2) * 8 + 1 * k.val = k.val; omega
    | ⟨1, _⟩ => show win2_3.index t (1 : Fin 2) * 1 + 1 * q'.val = q'.val; omega
  · funext y
    obtain ⟨z, q', rfl⟩ : ∃ (z : Fin 1) (q' : Fin 1), y = ix2 z q' := ⟨y 0, y 1, eq_ix2 y⟩
    show V c main_v40 (((cfg2.win 4).blk t).view.emb (ix2 z q')) = V c main_v40 (ix2 z q')
    refine congrArg _ ?_
    funext a; apply Fin.ext
    match a with
    | ⟨0, _⟩ => show win2_4.index t (0 : Fin 2) * 1 + 1 * z.val = z.val; omega
    | ⟨1, _⟩ => show win2_4.index t (1 : Fin 2) * 1 + 1 * q'.val = q'.val; omega

/-- An index of the score array is in point t's block iff each coordinate is in the block's range on its axis. -/
theorem mem_blk (t : Fin cfg2.N) (i : S100000x1.Idx) :
    i ∈ ((cfg2.win 5).blk t).view.set ↔ ∀ a : Fin 2, win2_5.index t a * S5000x1.size a ≤ (i a).val ∧ (i a).val < win2_5.index t a * S5000x1.size a + S5000x1.size a := by
  show i ∈ ((View.whole main_v41).slice (win2_5.rect t)).set ↔ _
  rw [View.set_slice_whole, Rect.mem_set_unit]
  exact Iff.rfl

/-- The blocks tile the scores: row n is in block n / 5000. -/
theorem cover (i : S100000x1.Idx) : ∃ t : Fin cfg2.N, (cfg2.win 5).flush t = true ∧ i ∈ ((cfg2.win 5).blk t).view.set := by
  have hi0 : (i 0).val < 100000 := (i 0).isLt
  have hi1 : (i 1).val < 1 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 1 ≤ (i 1).val ∧ (i 1).val < win2_5.index t (1 : Fin 2) * 1 + 1; omega

/-- THE SCORE ARRAY after the call: stage3 of the five input arrays as the call finds them. -/
theorem final (c : Dev nD) :
    (dat2 V c).arrAt 5 cfg2.N
      = stage3 (M := 100000) (V c main_v38) (V c main_v15) (V c main_v39) (V c main_arg7) (V c main_v40) :=
  (dat2 V c).arrAt_eq_of_cover 5 _ (fun t _ => flushed_eq V c t) cover

end Cert.KernelIdeal.Region2

end
-- ==== Proof.LibHostCalls.lean ====
/-
  Two general facts for reading back, by hand, the run of a host program that calls module-local functions.

  The operations of an inlined callee are built over typed references, which carry contents to the buffer's own type and
  back; after the run's fold is unfolded every intermediate value sits inside such a round trip. The round trip is the
  identity, for ANY typed reference (no computation on the reference is needed), so one rewriting pass removes them all;
  leaving them to a single definitional check costs time and memory that grow with the nesting (at shapes of a hundred
  million elements, gigabytes). And the contents after two lines of operations run in a row are the second line's from
  the first's, which lets a long line be read in pieces.
-/
import Idealize.ShloMosaic.Lib.StableHlo.Run

noncomputable section

namespace Cert.LibHostCalls

open Idealize.ShloMosaic Idealize.ShloMosaic.StableHlo

variable {τ : Topo} {sig : RefSig} {Val : EltTy → Type}

/-- Contents carried to a typed reference's buffer and back are the contents. -/
theorem ofBuf_toBuf {T : BufTy} (x : TRef sig T) (v : T.Contents Val) : x.ofBuf (x.toBuf v) = v := by
  obtain ⟨r, h, h1, h2⟩ := x
  subst h
  rfl

/-- The contents after two lines of operations in a row are the second line's from the first's. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibHostCalls

end
-- ==== Proof.Chain.lean ====
/-
  What each buffer holds at every boundary of the idealized program's run, as a function of the argument arrays.

  The run's contents W0 … W9 are a fold: a stretch of host operations applies its operations to the contents before it,
  a pallas_call replaces its output array by what its write-backs leave and keeps every other buffer. Reading the fold
  one boundary at a time: before the first call the source ids, the target ids and the scale column are the host's
  functions of the edge list (W3); each call's output is its whole-array stage function of its input arrays
  (Proof/Region0–2.lean); each later stretch gathers and sums that output over the edges; and every buffer a later
  segment reads is carried unchanged across the segments that do not write it. The last line is the result buffer.
-/
import proofs.«171408_j12773232738731_2_alg».proof.Proof.Gen.KernelIdeal.Frame
import proofs.«171408_j12773232738731_2_alg».proof.Proof.Values
import proofs.«171408_j12773232738731_2_alg».proof.Proof.Region0
import proofs.«171408_j12773232738731_2_alg».proof.Proof.Region1
import proofs.«171408_j12773232738731_2_alg».proof.Proof.Region2
import proofs.«171408_j12773232738731_2_alg».proof.Proof.LibHostCalls
import Idealize.ShloMosaic.Lib.StableHlo.Run

set_option maxRecDepth 16384

noncomputable section

namespace Cert.KernelIdeal.Chain

open Cert.KernelIdeal Cert.KernelIdeal.Gen Cert.KernelIdeal.Values Cert.Gcn
open Idealize.ShloMosaic Idealize.ShloMosaic.TcCoe Idealize.ShloMosaic.StableHlo
open Idealize.SL.Sem
open Idealize.ShloMosaic.Pipeline (Dat Cfg Window)

variable (m : (ℓ : Loc nD τ sig) → Buf (Elt Ideal) ℓ) (ρ : Dev nD → PrngReg)

set_option maxHeartbeats 8000000 in
theorem w3_v3 (c : Dev nD) : W3 m ρ c (Proc.devRef .tc main_v3) = srcIds (m ((c : Thread nD τ).loc main_arg1)) := by
  show StableHlo.after hostOps0_2 (StableHlo.after hostOps0_1 (StableHlo.after hostOps0 (W0 m ρ c))) (Proc.devRef .tc main_v3) = _
  after_results
  rfl

set_option maxHeartbeats 8000000 in
theorem w3_v6 (c : Dev nD) : W3 m ρ c (Proc.devRef .tc main_v6) = dstIds (m ((c : Thread nD τ).loc main_arg1)) := by
  show StableHlo.after hostOps0_2 (StableHlo.after hostOps0_1 (StableHlo.after hostOps0 (W0 m ρ c))) (Proc.devRef .tc main_v6) = _
  after_results
  rfl

set_option maxHeartbeats 8000000 in
theorem w1_v12 (c : Dev nD) : W1 m ρ c (Proc.devRef .tc main_v12)
    = cmpf .ogt (degree (m ((c : Thread nD τ).loc main_arg1))) (broadcastInDim S100000 ![] bcast_S_S100000 (constant S_ .f32 0x00000000#32)) := by
  show StableHlo.after hostOps0 (W0 m ρ c) (Proc.devRef .tc main_v12) = _
  after_results
  rfl

set_option maxHeartbeats 8000000 in
theorem w1_v13 (c : Dev nD) : W1 m ρ c (Proc.devRef .tc main_v13) = Host.rsqrt (degree (m ((c : Thread nD τ).loc main_arg1))) := by
  show StableHlo.after hostOps0 (W0 m ρ c) (Proc.devRef .tc main_v13) = _
  after_results
  rfl

set_option maxHeartbeats 8000000 in
theorem w1_cst2 (c : Dev nD) : W1 m ρ c (Proc.devRef .tc main_cst_2) = constant (F := Ideal) S_ .f32 0x00000000#32 := by
  show StableHlo.after hostOps0 (W0 m ρ c) (Proc.devRef .tc main_cst_2) = _
  after_results

/-- Contents read through a typed reference to a buffer of that very type are the contents (the transport is along an
    equation between equal types): the four the outlined select touches. -/
theorem ofBuf_v12 (h1 h2 h3) (v : IVec S100000 1) :
    (TRef.of (sig := sig) (T := ⟨S100000, .i1⟩) main_v12 h1 h2 h3).ofBuf (Val := Elt Ideal) v = v := rfl
theorem ofBuf_v13 (h1 h2 h3) (v : FVec Ideal S100000 .f32) :
    (TRef.of (sig := sig) (T := ⟨S100000, .f32⟩) main_v13 h1 h2 h3).ofBuf (Val := Elt Ideal) v = v := rfl
theorem ofBuf_cst2 (h1 h2 h3) (v : FVec Ideal S_ .f32) :
    (TRef.of (sig := sig) (T := ⟨S_, .f32⟩) main_cst_2 h1 h2 h3).ofBuf (Val := Elt Ideal) v = v := rfl
theorem toBuf_v14 (h1 h2 h3) (v : FVec Ideal S100000 .f32) :
    (TRef.of (sig := sig) (T := ⟨S100000, .f32⟩) main_v14 h1 h2 h3).toBuf (Val := Elt Ideal) v = v := rfl

set_option maxHeartbeats 8000000 in
/-- The scale after the outlined select: the three values it reads are those of the stretch before it. -/
theorem w2_v14 (c : Dev nD) : W2 m ρ c (Proc.devRef .tc main_v14) = scale (m ((c : Thread nD τ).loc main_arg1)) := by
  have h12 := w1_v12 m ρ c
  have h13 := w1_v13 m ρ c
  have h2 := w1_cst2 m ρ c
  show StableHlo.after hostOps0_1 (W1 m ρ c) (Proc.devRef .tc main_v14) = _
  generalize W1 m ρ c = Wv at h12 h13 h2 ⊢
  after_results
  simp only [Cert.LibHostCalls.ofBuf_toBuf]
  rw [h12, h13, h2]
  rw [toBuf_v14, ofBuf_v12, ofBuf_v13, ofBuf_cst2]
  rfl

set_option maxHeartbeats 8000000 in
theorem w3_v15 (c : Dev nD) : W3 m ρ c (Proc.devRef .tc main_v15) = scaleCol (m ((c : Thread nD τ).loc main_arg1)) := by
  have h14 := w2_v14 m ρ c
  show StableHlo.after hostOps0_2 (W2 m ρ c) (Proc.devRef .tc main_v15) = _
  generalize W2 m ρ c = Wv at h14 ⊢
  after_results
  rw [h14]
  rfl

set_option maxHeartbeats 8000000 in
theorem w3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results

set_option maxHeartbeats 8000000 in
theorem w3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results

set_option maxHeartbeats 8000000 in
theorem w3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results

set_option maxHeartbeats 8000000 in
theorem w3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results

set_option maxHeartbeats 8000000 in
theorem w3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results

set_option maxHeartbeats 8000000 in
theorem w3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results

set_option maxHeartbeats 8000000 in
theorem w3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results

set_option maxHeartbeats 8000000 in
theorem w3_arg8 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results

theorem w4_v16 (c : Dev nD) : W4 m ρ c (Proc.devRef .tc main_v16) = rows1 (m ((c : Thread nD τ).loc main_arg0)) (m ((c : Thread nD τ).loc main_arg1)) (m ((c : Thread nD τ).loc main_arg3)) := by
  refine (W4_arr m ρ c 3).trans ?_
  rw [Region0.final (V3 m ρ) c]
  show stage1 (M := 100000) (W3 m ρ c (Proc.devRef .tc main_arg0)) (W3 m ρ c (Proc.devRef .tc main_v15)) (W3 m ρ c (Proc.devRef .tc main_arg3)) = _
  rw [w3_arg0, w3_v15, w3_arg3]
  rfl

theorem w4_v15 (c : Dev nD) : W4 m ρ c (Proc.devRef .tc main_v15) = scaleCol (m ((c : Thread nD τ).loc main_arg1)) :=
  ((W4_arr m ρ c 1).trans (((dat0 (V3 m ρ) c).arrAt_in 1 rfl _).trans (A_eq0 (V3 m ρ) c 1))).trans (w3_v15 m ρ c)

theorem w4_v3 (c : Dev nD) : W4 m ρ c (Proc.devRef .tc main_v3) = srcIds (m ((c : Thread nD τ).loc main_arg1)) :=
  (W4_of_ne m ρ c main_v3 (by decide)).trans (w3_v3 m ρ c)

theorem w4_v6 (c : Dev nD) : W4 m ρ c (Proc.devRef .tc main_v6) = dstIds (m ((c : Thread nD τ).loc main_arg1)) :=
  (W4_of_ne m ρ c main_v6 (by decide)).trans (w3_v6 m ρ c)

theorem w4_arg2 (c : Dev nD) : W4 m ρ c (Proc.devRef .tc main_arg2) = m ((c : Thread nD τ).loc main_arg2) :=
  (W4_of_ne m ρ c main_arg2 (by decide)).trans (w3_arg2 m ρ c)

theorem w4_arg4 (c : Dev nD) : W4 m ρ c (Proc.devRef .tc main_arg4) = m ((c : Thread nD τ).loc main_arg4) :=
  (W4_of_ne m ρ c main_arg4 (by decide)).trans (w3_arg4 m ρ c)

theorem w4_arg5 (c : Dev nD) : W4 m ρ c (Proc.devRef .tc main_arg5) = m ((c : Thread nD τ).loc main_arg5) :=
  (W4_of_ne m ρ c main_arg5 (by decide)).trans (w3_arg5 m ρ c)

theorem w4_arg6 (c : Dev nD) : W4 m ρ c (Proc.devRef .tc main_arg6) = m ((c : Thread nD τ).loc main_arg6) :=
  (W4_of_ne m ρ c main_arg6 (by decide)).trans (w3_arg6 m ρ c)

theorem w4_arg7 (c : Dev nD) : W4 m ρ c (Proc.devRef .tc main_arg7) = m ((c : Thread nD τ).loc main_arg7) :=
  (W4_of_ne m ρ c main_arg7 (by decide)).trans (w3_arg7 m ρ c)

theorem w4_arg8 (c : Dev nD) : W4 m ρ c (Proc.devRef .tc main_arg8) = m ((c : Thread nD τ).loc main_arg8) :=
  (W4_of_ne m ρ c main_arg8 (by decide)).trans (w3_arg8 m ρ c)

set_option maxHeartbeats 8000000 in
theorem w5_v26 (c : Dev nD) : W5 m ρ c (Proc.devRef .tc main_v26) = aggregate16 (m ((c : Thread nD τ).loc main_arg1)) (rows1 (m ((c : Thread nD τ).loc main_arg0)) (m ((c : Thread nD τ).loc main_arg1)) (m ((c : Thread nD τ).loc main_arg3))) := by
  show StableHlo.after hostOps1 (W4 m ρ c) (Proc.devRef .tc main_v26) = _
  after_results
  rw [w4_v6, w4_v16, w4_v3]
  rfl

set_option maxHeartbeats 8000000 in
theorem w5_v27 (c : Dev nD) : W5 m ρ c (Proc.devRef .tc main_v27) = shapeCast S1x16 (m ((c : Thread nD τ).loc main_arg4)) shapeCasts_S16_S1x16 := by
  show StableHlo.after hostOps1 (W4 m ρ c) (Proc.devRef .tc main_v27) = _
  after_results
  rw [w4_arg4]
  rfl

set_option maxHeartbeats 8000000 in
theorem w5_v3 (c : Dev nD) : W5 m ρ c (Proc.devRef .tc main_v3) = srcIds (m ((c : Thread nD τ).loc main_arg1)) := by
  show StableHlo.after hostOps1 (W4 m ρ c) (Proc.devRef .tc main_v3) = _
  after_results
  exact w4_v3 m ρ c

set_option maxHeartbeats 8000000 in
theorem w5_v6 (c : Dev nD) : W5 m ρ c (Proc.devRef .tc main_v6) = dstIds (m ((c : Thread nD τ).loc main_arg1)) := by
  show StableHlo.after hostOps1 (W4 m ρ c) (Proc.devRef .tc main_v6) = _
  after_results
  exact w4_v6 m ρ c

set_option maxHeartbeats 8000000 in
theorem w5_v15 (c : Dev nD) : W5 m ρ c (Proc.devRef .tc main_v15) = scaleCol (m ((c : Thread nD τ).loc main_arg1)) := by
  show StableHlo.after hostOps1 (W4 m ρ c) (Proc.devRef .tc main_v15) = _
  after_results
  exact w4_v15 m ρ c

set_option maxHeartbeats 8000000 in
theorem w5_arg2 (c : Dev nD) : W5 m ρ c (Proc.devRef .tc main_arg2) = m ((c : Thread nD τ).loc main_arg2) := by
  show StableHlo.after hostOps1 (W4 m ρ c) (Proc.devRef .tc main_arg2) = _
  after_results
  exact w4_arg2 m ρ c

set_option maxHeartbeats 8000000 in
theorem w5_arg5 (c : Dev nD) : W5 m ρ c (Proc.devRef .tc main_arg5) = m ((c : Thread nD τ).loc main_arg5) := by
  show StableHlo.after hostOps1 (W4 m ρ c) (Proc.devRef .tc main_arg5) = _
  after_results
  exact w4_arg5 m ρ c

set_option maxHeartbeats 8000000 in
theorem w5_arg6 (c : Dev nD) : W5 m ρ c (Proc.devRef .tc main_arg6) = m ((c : Thread nD τ).loc main_arg6) := by
  show StableHlo.after hostOps1 (W4 m ρ c) (Proc.devRef .tc main_arg6) = _
  after_results
  exact w4_arg6 m ρ c

set_option maxHeartbeats 8000000 in
theorem w5_arg7 (c : Dev nD) : W5 m ρ c (Proc.devRef .tc main_arg7) = m ((c : Thread nD τ).loc main_arg7) := by
  show StableHlo.after hostOps1 (W4 m ρ c) (Proc.devRef .tc main_arg7) = _
  after_results
  exact w4_arg7 m ρ c

set_option maxHeartbeats 8000000 in
theorem w5_arg8 (c : Dev nD) : W5 m ρ c (Proc.devRef .tc main_arg8) = m ((c : Thread nD τ).loc main_arg8) := by
  show StableHlo.after hostOps1 (W4 m ρ c) (Proc.devRef .tc main_arg8) = _
  after_results
  exact w4_arg8 m ρ c

theorem w6_v28 (c : Dev nD) : W6 m ρ c (Proc.devRef .tc main_v28) = rows2 (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 4).trans ?_
  rw [Region1.final (V5 m ρ) c]
  show stage2 (M := 100000) (W5 m ρ c (Proc.devRef .tc main_v26)) (W5 m ρ c (Proc.devRef .tc main_v15)) (W5 m ρ c (Proc.devRef .tc main_v27)) (W5 m ρ c (Proc.devRef .tc main_arg5)) = _
  rw [w5_v26, w5_v15, w5_v27, w5_arg5]
  rfl

theorem w6_v15 (c : Dev nD) : W6 m ρ c (Proc.devRef .tc main_v15) = scaleCol (m ((c : Thread nD τ).loc main_arg1)) :=
  ((W6_arr m ρ c 1).trans (((dat1 (V5 m ρ) c).arrAt_in 1 rfl _).trans (A_eq1 (V5 m ρ) c 1))).trans (w5_v15 m ρ c)

theorem w6_v3 (c : Dev nD) : W6 m ρ c (Proc.devRef .tc main_v3) = srcIds (m ((c : Thread nD τ).loc main_arg1)) :=
  (W6_of_ne m ρ c main_v3 (by decide)).trans (w5_v3 m ρ c)

theorem w6_v6 (c : Dev nD) : W6 m ρ c (Proc.devRef .tc main_v6) = dstIds (m ((c : Thread nD τ).loc main_arg1)) :=
  (W6_of_ne m ρ c main_v6 (by decide)).trans (w5_v6 m ρ c)

theorem w6_arg2 (c : Dev nD) : W6 m ρ c (Proc.devRef .tc main_arg2) = m ((c : Thread nD τ).loc main_arg2) :=
  (W6_of_ne m ρ c main_arg2 (by decide)).trans (w5_arg2 m ρ c)

theorem w6_arg6 (c : Dev nD) : W6 m ρ c (Proc.devRef .tc main_arg6) = m ((c : Thread nD τ).loc main_arg6) :=
  (W6_of_ne m ρ c main_arg6 (by decide)).trans (w5_arg6 m ρ c)

theorem w6_arg7 (c : Dev nD) : W6 m ρ c (Proc.devRef .tc main_arg7) = m ((c : Thread nD τ).loc main_arg7) :=
  (W6_of_ne m ρ c main_arg7 (by decide)).trans (w5_arg7 m ρ c)

theorem w6_arg8 (c : Dev nD) : W6 m ρ c (Proc.devRef .tc main_arg8) = m ((c : Thread nD τ).loc main_arg8) :=
  (W6_of_ne m ρ c main_arg8 (by decide)).trans (w5_arg8 m ρ c)

set_option maxHeartbeats 8000000 in
theorem w7_v38 (c : Dev nD) : W7 m ρ c (Proc.devRef .tc main_v38) = aggregate8 (m ((c : Thread nD τ).loc main_arg1)) (rows2 (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps2 (W6 m ρ c) (Proc.devRef .tc main_v38) = _
  after_results
  rw [w6_v6, w6_v28, w6_v3]
  rfl

set_option maxHeartbeats 8000000 in
theorem w7_v39 (c : Dev nD) : W7 m ρ c (Proc.devRef .tc main_v39) = shapeCast S1x8 (m ((c : Thread nD τ).loc main_arg6)) shapeCasts_S8_S1x8 := by
  show StableHlo.after hostOps2 (W6 m ρ c) (Proc.devRef .tc main_v39) = _
  after_results
  rw [w6_arg6]
  rfl

set_option maxHeartbeats 8000000 in
theorem w7_v40 (c : Dev nD) : W7 m ρ c (Proc.devRef .tc main_v40) = shapeCast S1x1 (m ((c : Thread nD τ).loc main_arg8)) shapeCasts_S1_S1x1 := by
  show StableHlo.after hostOps2 (W6 m ρ c) (Proc.devRef .tc main_v40) = _
  after_results
  rw [w6_arg8]
  rfl

set_option maxHeartbeats 8000000 in
theorem w7_v15 (c : Dev nD) : W7 m ρ c (Proc.devRef .tc main_v15) = scaleCol (m ((c : Thread nD τ).loc main_arg1)) := by
  show StableHlo.after hostOps2 (W6 m ρ c) (Proc.devRef .tc main_v15) = _
  after_results
  exact w6_v15 m ρ c

set_option maxHeartbeats 8000000 in
theorem w7_arg2 (c : Dev nD) : W7 m ρ c (Proc.devRef .tc main_arg2) = m ((c : Thread nD τ).loc main_arg2) := by
  show StableHlo.after hostOps2 (W6 m ρ c) (Proc.devRef .tc main_arg2) = _
  after_results
  exact w6_arg2 m ρ c

set_option maxHeartbeats 8000000 in
theorem w7_arg7 (c : Dev nD) : W7 m ρ c (Proc.devRef .tc main_arg7) = m ((c : Thread nD τ).loc main_arg7) := by
  show StableHlo.after hostOps2 (W6 m ρ c) (Proc.devRef .tc main_arg7) = _
  after_results
  exact w6_arg7 m ρ c

theorem w8_v41 (c : Dev nD) : W8 m ρ c (Proc.devRef .tc main_v41) = scores (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 5).trans ?_
  rw [Region2.final (V7 m ρ) c]
  show stage3 (M := 100000) (W7 m ρ c (Proc.devRef .tc main_v38)) (W7 m ρ c (Proc.devRef .tc main_v15)) (W7 m ρ c (Proc.devRef .tc main_v39)) (W7 m ρ c (Proc.devRef .tc main_arg7)) (W7 m ρ c (Proc.devRef .tc main_v40)) = _
  rw [w7_v38, w7_v15, w7_v39, w7_arg7, w7_v40]
  rfl

theorem w8_arg2 (c : Dev nD) : W8 m ρ c (Proc.devRef .tc main_arg2) = m ((c : Thread nD τ).loc main_arg2) :=
  (W8_of_ne m ρ c main_arg2 (by decide)).trans (w7_arg2 m ρ c)

set_option maxHeartbeats 8000000 in
/-- THE RESULT BUFFER at the last boundary: the paired scores of the node scores. -/
theorem w9_v53 (c : Dev nD) : W9 m ρ c (Proc.devRef .tc main_v53) = pairScores (scores (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg2)) := by
  show StableHlo.after hostOps3 (W8 m ρ c) (Proc.devRef .tc main_v53) = _
  after_results
  rw [w8_v41, w8_arg2]
  rfl

end Cert.KernelIdeal.Chain

end
-- ==== Proof.LibTakeRows.lean ====
/-
  `stablehlo.gather` of whole rows of a rank-2 operand, read at an index.

  What `jnp.take(x, idx, axis=0)` of a table `x : [N, C]` at an integer vector `idx : [R]` lowers to: a gather with
  offset_dims `[1]`, collapsed_slice_dims `[0]`, start_index_map `[0]`, index_vector_dim 1 and slice_sizes `[1, C]`
  over the indices broadcast to `[R, 1]`. This file proves, for all `N`, `R`, `C`, that result element `(r, c)` is the
  operand at row `idx[r, 0]` — read as a signed integer and clamped into `[0, N − 1]`, as the gather clamps every
  start index — and column `c` (`gather_rows_apply`); and that for a start index whose unsigned value is already
  below `N` (with `N` below half the word range) the clamp is the identity (`gather_rows_apply_of_lt`).
-/
import Idealize.ShloMosaic.Lib.ValueIdx

noncomputable section

namespace Cert.LibTakeRows

open Idealize.ShloMosaic Idealize.ShloMosaic.ValueIdx

variable {α : Type}

/-- The dimension numbers of a row gather for an operand `[N, C]`, start indices `[R, 1]` and result `[R, C]`; their
    conditions `wf` are decided on a program's literal shapes. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index `[r, 0]` of result index `(r, c)`. -/
abbrev rowIdx {R C : Nat} (y : (⟨2, ![R, C]⟩ : Shape).Idx) : (⟨2, ![R, 1]⟩ : Shape).Idx :=
  ix2 (⟨(y 0).val, idx2_lt0 y⟩ : Fin R) (⟨0, Nat.one_pos⟩ : Fin 1)

/-- THE ROW GATHER READ AT `(r, c)`: the operand at row `idx[r, 0]`, read signed and clamped into `[0, N − 1]`,
    and column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N R C wf) x idx y
      = x (ix2 (⟨min (idx (rowIdx y)).toInt.toNat (N - 1), by omega⟩ : Fin N) (⟨(y 1).val, idx2_lt1 y⟩ : Fin C)) := by
  unfold Host.gather
  congr 1
  funext a
  refine Fin.ext ?_
  match a with
  | ⟨0, _⟩ =>
    -- the collapsed axis: the clamped start index, no batching, no offset
    show (rowsDims N R C wf).start y idx 0 + (rowsDims N R C wf).batchCoord y 0 + (rowsDims N R C wf).offCoord y 0
      = min (idx (rowIdx y)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx y ⟨List.idxOf (0 : Fin 2) (rowsDims N R C wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    -- the offset axis: no start (not in the start index map), no batching, the result's column
    show (rowsDims N R C wf).start y idx 1 + (rowsDims N R C wf).batchCoord y 1 + (rowsDims N R C wf).offCoord y 1
      = (y 1).val
    have h1 : (1 : Fin 2) ∉ (rowsDims N R C wf).startIndexMap := show (1 : Fin 2) ∉ [(0 : Fin 2)] by decide
    have hk : (1 : Fin 2) ∈ (rowsDims N R C wf).sKept :=
      (GatherDims.mem_sKept _ _).mpr ⟨show (1 : Fin 2) ∉ [(0 : Fin 2)] by decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- A word whose unsigned value is below `N`, with `2 N` at most the word range, reads signed as that value, and the
    clamp into `[0, N − 1]` leaves it. -/
theorem clamp_of_toNat_lt {w N : Nat} (v : BitVec w) (hN : 2 * N ≤ 2 ^ w) (hv : v.toNat < N) :
    min v.toInt.toNat (N - 1) = v.toNat := by
  have h : v.toInt = (v.toNat : Int) := by
    rw [BitVec.toInt_eq_toNat_cond, if_pos (by omega)]
  rw [h, Int.toNat_natCast]
  omega

/-- THE ROW GATHER AT IN-RANGE INDICES: where the start index `idx[r, 0]` has unsigned value below `N` (and `2 N` is
    at most the word range, so that it is non-negative as a signed word), result element `(r, c)` is the operand at
    exactly that row, column `c`. -/
theorem gather_rows_apply_of_lt {N R C w : Nat} (hN2 : 2 * N ≤ 2 ^ w)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx)
    (hlt : (idx (rowIdx y)).toNat < N) :
    Host.gather (rowsDims N R C wf) x idx y
      = x (ix2 (⟨(idx (rowIdx y)).toNat, hlt⟩ : Fin N) (⟨(y 1).val, idx2_lt1 y⟩ : Fin C)) := by
  rw [gather_rows_apply (by omega) wf x idx y]
  congr 2
  exact Fin.ext (clamp_of_toNat_lt _ hN2 hlt)

end Cert.LibTakeRows

end
-- ==== Proof.LibScatterRows.lean ====
/-
  The host's accumulating row scatter and the one-axis gather, read at an index.

  What jax.ops.segment_sum(u, seg, num_segments = N) of updates u : [R, C] lowers to is a scatter with an add body into a
  table [N, C], update_window_dims [1], inserted_window_dims [0], scatter_dims_to_operand_dims [0], index_vector_dim 1,
  over the segment ids broadcast to [R, 1]. At the exact values its entry (n, c) is the table's entry plus the sum of
  the updates u (r, c) over the rows r whose id, read signed and NOT clamped, is n; an id outside [0, N) drops its row.
  This file proves, for all N, R, C, the one fact an argument about such a sum needs: an update (r, c') that lands on
  (n, c) has id n and c' = c (scatter_rows_lands). It also reads the gather of single entries of a vector [N] at
  ids [R, 1] (what v[ids] lowers to): entry r is the vector at id r, read signed and clamped into [0, N - 1]
  (gather_vec_apply).
-/
import Idealize.ShloMosaic.Lib.ValueIdx
import Idealize.ShloMosaic.PureOps.Ideal

noncomputable section

namespace Cert.LibScatterRows

open Idealize.ShloMosaic Idealize.ShloMosaic.ValueIdx

variable {α : Type}

/-- The dimension numbers of a row scatter into a table [N, C] from updates [R, C] at ids [R, 1]. -/
abbrev rowsScatter (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The id index [r, 0] of an update index (r, c). -/
abbrev idOf {R C : Nat} (j : (⟨2, ![R, C]⟩ : Shape).Idx) : (⟨2, ![R, 1]⟩ : Shape).Idx :=
  ix2 (⟨(j 0).val, idx2_lt0 j⟩ : Fin R) (⟨0, Nat.one_pos⟩ : Fin 1)

/-- On the table's row axis the window starts at the update's id, read signed. -/
theorem start_row {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsScatter N R C wf).start j idx 0 = (idx (idOf j)).toInt := by
  unfold ScatterDims.start
  rw [dif_pos (show (0 : Fin 2) ∈ (rowsScatter N R C wf).scatterDimsToOperandDims from List.mem_singleton.mpr rfl)]
  have hsi : (rowsScatter N R C wf).siIdx j ⟨List.idxOf (0 : Fin 2) (rowsScatter N R C wf).scatterDimsToOperandDims,
      List.idxOf_lt_length_iff.2 (List.mem_singleton.mpr rfl)⟩ = idOf j := by
    funext b; refine Fin.ext ?_
    match b with
    | ⟨0, _⟩ => rfl
    | ⟨1, _⟩ => rfl
  rw [hsi]

/-- On the table's column axis the window starts at zero: the ids do not name that axis. -/
theorem start_col {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsScatter N R C wf).start j idx 1 = 0 := by
  unfold ScatterDims.start
  rw [dif_neg (show (1 : Fin 2) ∉ [(0 : Fin 2)] by decide)]

/-- The row axis is inserted: no window coordinate. -/
theorem window_row {N R C : Nat} (wf : ScatterDims.WF ⟨2, ![N, C]⟩ ⟨2, ![R, 1]⟩ ⟨2, ![R, C]⟩ [1] [0] [0] 1)
    (j : (⟨2, ![R, C]⟩ : Shape).Idx) : (rowsScatter N R C wf).window j 0 = 0 := by
  unfold ScatterDims.window
  have h : (0 : Fin 2) ∉ (rowsScatter N R C wf).sKept := by
    show (0 : Fin 2) ∉ (List.finRange 2).filter (· ∉ [(0 : Fin 2)]); decide
  rw [dif_neg h]

/-- On the column axis the window coordinate is the update's column. -/
theorem window_col {N R C : Nat} (wf : ScatterDims.WF ⟨2, ![N, C]⟩ ⟨2, ![R, 1]⟩ ⟨2, ![R, C]⟩ [1] [0] [0] 1)
    (j : (⟨2, ![R, C]⟩ : Shape).Idx) : (rowsScatter N R C wf).window j 1 = (j 1).val := by
  unfold ScatterDims.window
  have h : (1 : Fin 2) ∈ (rowsScatter N R C wf).sKept := by
    show (1 : Fin 2) ∈ (List.finRange 2).filter (· ∉ [(0 : Fin 2)]); decide
  rw [dif_pos h]
  rfl

/-- AN UPDATE THAT LANDS: if update (r, c') lands on table entry (n, c) then its id, read signed, is n, and c' = c. -/
theorem scatter_rows_lands {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowsScatter N R C wf).resultIdx? j idx = some i) :
    (idx (idOf j)).toInt = ((i 0).val : Int) ∧ (j 1).val = (i 1).val := by
  unfold ScatterDims.resultIdx? at h
  split at h
  · rename_i hin
    have hi := Option.some.inj h
    have h0 := hin 0
    have e0 : (i 0).val = ((rowsScatter N R C wf).start j idx 0 + (rowsScatter N R C wf).window j 0).toNat := by
      rw [← hi]
    have e1 : (i 1).val = ((rowsScatter N R C wf).start j idx 1 + (rowsScatter N R C wf).window j 1).toNat := by
      rw [← hi]
    rw [start_row, window_row] at h0 e0
    rw [start_col, window_col] at e1
    constructor
    · omega
    · omega
  · exact absurd h (by simp)

/-- The dimension numbers of a gather of single entries of a vector [N] at ids [R, 1]. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The id index [r, 0] of result index r. -/
abbrev idOf1 {R : Nat} (y : (⟨1, ![R]⟩ : Shape).Idx) : (⟨2, ![R, 1]⟩ : Shape).Idx :=
  ix2 (⟨(y 0).val, (y 0).isLt⟩ : Fin R) (⟨0, Nat.one_pos⟩ : Fin 1)

/-- THE VECTOR GATHER READ AT r: the vector at id r, read signed and clamped into [0, N - 1]. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (vecDims N R wf) x idx y
      = x (ix1 (⟨min (idx (idOf1 y)).toInt.toNat (N - 1), by omega⟩ : Fin N)) := by
  unfold Host.gather
  congr 1
  funext a
  refine Fin.ext ?_
  match a with
  | ⟨0, _⟩ =>
    show (vecDims N R wf).start y idx 0 + (vecDims N R wf).batchCoord y 0 + (vecDims N R wf).offCoord y 0
      = min (idx (idOf1 y)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx y ⟨List.idxOf (0 : Fin 1) (vecDims N R wf).startIndexMap,
        List.idxOf_lt_length_iff.2 (List.mem_singleton.mpr rfl)⟩ = idOf1 y := by
      funext b; refine Fin.ext ?_
      match b with
      | ⟨0, _⟩ => rfl
      | ⟨1, _⟩ => rfl
    rw [hsi]
    rfl

end Cert.LibScatterRows

end
-- ==== Proof.LibAggregate.lean ====
/-
  A symmetric-normalised neighbourhood sum, two ways.

  Over a graph given as R edges with source ids s(r) and target ids t(r), a table hw : [N, C] of node rows and a
  scale d(n) per node, the message that edge r sends along column c is  d(s r) · d(t r) · hw(s r, c), and node n
  receives the sum over the edges with t(r) = n. Because every edge that lands on n carries the same factor d(n), the
  sum can also be taken of the pre-scaled rows d(s r) · hw(s r, c) and multiplied by d(n) once, after the sum:
      d(n) · Σ_{t r = n} d(s r) · hw(s r, c)  =  Σ_{t r = n} (d(s r) · d(n)) · hw(s r, c).
  Over the extended reals this needs d(n) to be a non-negative real (then x ↦ d(n) · x is additive on every extended
  real, the infinities included); the rows hw may hold anything. The sums are the host's accumulating row scatter, the
  rows s(r) the host's row gather (ids read signed, clamped into [0, N − 1]); an edge whose target id is outside
  [0, N) is dropped by both sides. Also: the reciprocal square root of a positive extended real is a non-negative real.
-/
import Idealize.ShloMosaic.Lib.ValueIdx
import Idealize.ShloMosaic.PureOps.Ideal
import proofs.«171408_j12773232738731_2_alg».proof.Proof.LibTakeRows
import proofs.«171408_j12773232738731_2_alg».proof.Proof.LibScatterRows

noncomputable section

open scoped BigOperators

namespace Cert.LibAggregate

open Idealize.ShloMosaic Idealize.ShloMosaic.ValueIdx Cert.LibTakeRows Cert.LibScatterRows

/-- A non-negative real factor distributes over a finite sum of extended reals. -/
theorem mul_sum_of_nonneg_ne_top {ι : Type} (s : Finset ι) (a : EReal) (ha : 0 ≤ a) (hat : a ≠ ⊤) (f : ι → EReal) :
    a * ∑ j ∈ s, f j = ∑ j ∈ s, a * f j := by
  classical
  induction s using Finset.induction_on with
  | empty => simp
  | insert x s hx ih =>
    rw [Finset.sum_insert hx, Finset.sum_insert hx, EReal.left_distrib_of_nonneg_of_ne_top ha hat, ih]

/-- The reciprocal square root of a positive extended real is a non-negative real (of +∞ it is 0). -/
theorem rsqrt_nonneg_ne_top (x : EReal) (hx : 0 < x) : 0 ≤ Ideal.rsqrt x ∧ Ideal.rsqrt x ≠ ⊤ := by
  induction x using EReal.rec with
  | bot => exact absurd hx (by simp)
  | top => rw [Ideal.rsqrt_top]; exact ⟨le_refl _, EReal.zero_ne_top⟩
  | coe r =>
    have hr : 0 < r := by exact_mod_cast hx
    rw [Ideal.rsqrt_coe, if_neg (not_lt.mpr hr.le), if_neg hr.ne']
    exact ⟨by exact_mod_cast (inv_nonneg.mpr (Real.sqrt_nonneg r)), EReal.coe_ne_top _⟩

variable {N R C w : Nat}

/-- THE TWO WAYS AGREE, entry by entry: the node scale times the scatter-sum of the gathered pre-scaled rows is the
    scatter-sum of the gathered rows times the edge weights, when every edge that lands on a node has weight
    (scale of its source row) · (scale of that node). -/
theorem scaled_aggregate (hN : 0 < N)
    (wfg : GatherDims.WF ⟨2, ![N, C]⟩ ⟨2, ![R, 1]⟩ ⟨2, ![R, C]⟩ [1] [0] [] [0] [] 1 ![1, C])
    (wfs : ScatterDims.WF ⟨2, ![N, C]⟩ ⟨2, ![R, 1]⟩ ⟨2, ![R, C]⟩ [1] [0] [0] 1)
    (d : Fin N → EReal) (hd0 : ∀ a, 0 ≤ d a) (hdt : ∀ a, d a ≠ ⊤)
    (hw z : FVec Ideal ⟨2, ![N, C]⟩ .f32) (hz : ∀ i, z i = 0)
    (sidx didx : IVec ⟨2, ![R, 1]⟩ w) (nrm : Fin R → EReal)
    (hn : ∀ (j : (⟨2, ![R, C]⟩ : Shape).Idx) (i : (⟨2, ![N, C]⟩ : Shape).Idx),
        (rowsScatter N R C wfs).resultIdx? j didx = some i →
        nrm ⟨(j 0).val, idx2_lt0 j⟩
          = d ⟨min (sidx (rowIdx j)).toInt.toNat (N - 1), by omega⟩ * d ⟨(i 0).val, idx2_lt0 i⟩)
    (i : (⟨2, ![N, C]⟩ : Shape).Idx) :
    d ⟨(i 0).val, idx2_lt0 i⟩ *
        Host.scatterAdd (F := Ideal) (φ := .f32) (rowsScatter N R C wfs) z didx
          (Host.gather (rowsDims N R C wfg) (fun k => d ⟨(k 0).val, idx2_lt0 k⟩ * hw k) sidx) i
      = Host.scatterAdd (F := Ideal) (φ := .f32) (rowsScatter N R C wfs) z didx
          (fun j => nrm ⟨(j 0).val, idx2_lt0 j⟩ * Host.gather (rowsDims N R C wfg) hw sidx j) i := by
  unfold Host.scatterAdd
  rw [Ideal.hostScatterAdd_def, Ideal.hostScatterAdd_def]
  unfold Ideal.hostScatterAdd
  show d _ * (z i + ∑ j ∈ _, _) = z i + ∑ j ∈ _, _
  rw [hz i, zero_add, zero_add, mul_sum_of_nonneg_ne_top _ _ (hd0 _) (hdt _)]
  refine Finset.sum_congr rfl fun j hj => ?_
  have hl := (Finset.mem_filter.mp hj).2
  rw [gather_rows_apply hN wfg, gather_rows_apply hN wfg, hn j i hl]
  show d ⟨(i 0).val, idx2_lt0 i⟩ * (d ⟨min (sidx (rowIdx j)).toInt.toNat (N - 1), by omega⟩ * hw _)
    = d ⟨min (sidx (rowIdx j)).toInt.toNat (N - 1), by omega⟩ * d ⟨(i 0).val, idx2_lt0 i⟩ * hw _
  rw [← mul_assoc, mul_comm (d ⟨(i 0).val, idx2_lt0 i⟩)]

end Cert.LibAggregate

end
-- ==== Proof.LibLayout.lean ====
/-
  Layout facts about arrays of any element type, read at an entry: a one-row or one-column table repeated along the other
  axis; a vector laid out as one row or one column, by a cast or by a placement along an axis (the two agree);
  putting a coordinate back on the reduced axis 0.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibLayout

open Idealize.ShloMosaic Idealize.ShloMosaic.ValueIdx

variable {α : Type}

/-- A one-row table placed along both axes of an M × N array reads, at (a, b), the table at (0, b). -/
theorem rowInDim_apply {M N : Nat} (v : (⟨2, ![1, N]⟩ : Shape).Idx → α)
    (h : (⟨2, ![1, N]⟩ : Shape).BroadcastsInDim ⟨2, ![M, N]⟩ ![0, 1]) (a : Fin M) (b : Fin N) :
    broadcastInDim ⟨2, ![M, N]⟩ ![0, 1] h v (ix2 a b) = v (ix2 (0 : Fin 1) b) :=
  broadcastInDim_apply ![0, 1] h v (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)

/-- A one-column table placed along both axes of an M × N array reads, at (a, b), the table at (a, 0). -/
theorem colInDim_apply {M N : Nat} (v : (⟨2, ![M, 1]⟩ : Shape).Idx → α)
    (h : (⟨2, ![M, 1]⟩ : Shape).BroadcastsInDim ⟨2, ![M, N]⟩ ![0, 1]) (a : Fin M) (b : Fin N) :
    broadcastInDim ⟨2, ![M, N]⟩ ![0, 1] h v (ix2 a b) = v (ix2 a (0 : Fin 1)) :=
  broadcastInDim_apply ![0, 1] h v (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])

/-- A vector placed along axis 1 of a 1 × N array reads, at (0, b), the vector at b. -/
theorem vecRow_apply {N : Nat} (v : (⟨1, ![N]⟩ : Shape).Idx → α)
    (h : (⟨1, ![N]⟩ : Shape).BroadcastsInDim ⟨2, ![1, N]⟩ ![1]) (b : Fin N) :
    broadcastInDim ⟨2, ![1, N]⟩ ![1] h v (ix2 (0 : Fin 1) b) = v (ix1 b) :=
  broadcastInDim_apply ![1] h v (ix2 (0 : Fin 1) b) (ix1 b) (fun c => by
    match c with
    | ⟨0, _⟩ =>
      show b.val = if N = 1 then 0 else b.val
      split
      · have := b.isLt; omega
      · rfl)

/-- A vector placed along axis 0 of an M × 1 array reads, at (a, 0), the vector at a. -/
theorem vecCol_apply {M : Nat} (v : (⟨1, ![M]⟩ : Shape).Idx → α)
    (h : (⟨1, ![M]⟩ : Shape).BroadcastsInDim ⟨2, ![M, 1]⟩ ![0]) (a : Fin M) :
    broadcastInDim ⟨2, ![M, 1]⟩ ![0] h v (ix2 a (0 : Fin 1)) = v (ix1 a) :=
  broadcastInDim_apply ![0] h v (ix2 a (0 : Fin 1)) (ix1 a) (fun c => by
    match c with
    | ⟨0, _⟩ =>
      show a.val = if M = 1 then 0 else a.val
      split
      · have := a.isLt; omega
      · rfl)

/-- A vector cast to one column reads, at (a, 0), the vector at a. -/
theorem castCol_apply {M : Nat} (v : (⟨1, ![M]⟩ : Shape).Idx → α) (h : (⟨1, ![M]⟩ : Shape).ShapeCasts ⟨2, ![M, 1]⟩) (a : Fin M) :
    shapeCast ⟨2, ![M, 1]⟩ v h (ix2 a (0 : Fin 1)) = v (ix1 a) :=
  shapeCast_apply v h _ _ (by
    rw [Shape.rowMajor_val_two, Shape.rowMajor_val_one]
    show a.val = a.val * 1 + 0
    omega)

/-- Laying a vector out as one row by a cast or by placing it along axis 1 gives the same array. -/
theorem castRow_eq {N : Nat} (v : (⟨1, ![N]⟩ : Shape).Idx → α) (h1 : (⟨1, ![N]⟩ : Shape).ShapeCasts ⟨2, ![1, N]⟩)
    (h2 : (⟨1, ![N]⟩ : Shape).BroadcastsInDim ⟨2, ![1, N]⟩ ![1]) :
    shapeCast ⟨2, ![1, N]⟩ v h1 = broadcastInDim ⟨2, ![1, N]⟩ ![1] h2 v := by
  funext j
  obtain ⟨z, b, rfl⟩ : ∃ (z : Fin 1) (b : Fin N), j = ix2 z b := ⟨j 0, j 1, eq_ix2 j⟩
  obtain rfl : z = 0 := Subsingleton.elim _ _
  rw [shapeCast_a_1a_apply, vecRow_apply]

/-- Laying a vector out as one column by a cast or by placing it along axis 0 gives the same array. -/
theorem castCol_eq {M : Nat} (v : (⟨1, ![M]⟩ : Shape).Idx → α) (h1 : (⟨1, ![M]⟩ : Shape).ShapeCasts ⟨2, ![M, 1]⟩)
    (h2 : (⟨1, ![M]⟩ : Shape).BroadcastsInDim ⟨2, ![M, 1]⟩ ![0]) :
    shapeCast ⟨2, ![M, 1]⟩ v h1 = broadcastInDim ⟨2, ![M, 1]⟩ ![0] h2 v := by
  funext j
  obtain ⟨a, z, rfl⟩ : ∃ (a : Fin M) (z : Fin 1), j = ix2 a z := ⟨j 0, j 1, eq_ix2 j⟩
  obtain rfl : z = 0 := Subsingleton.elim _ _
  rw [castCol_apply, vecCol_apply]

/-- A scalar placed along no axis reads the scalar everywhere. -/
theorem splat_apply {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun c => c.elim0)

/-- Putting coordinate k back on axis 0 of a column index g gives the entry (k, g). -/
theorem lift_axis0 {m n : Nat} (h : (⟨2, ![m, n]⟩ : Shape).Reduces [0] (⟨1, ![n]⟩ : Shape)) (g : Fin n)
    (k : Fin ((⟨2, ![m, n]⟩ : Shape).size 0)) : h.lift (ix1 g) k = ix2 (⟨k.val, k.isLt⟩ : Fin m) g := by
  funext c; apply Fin.ext
  fin_cases c <;> rfl

end Cert.LibLayout

end
-- ==== Proof.Norm.lean ====
/-
  The node scale and the edge weights of the reference, read at an index.

  The reference scales node n by d(n) = 1/sqrt(degree n) where the degree is positive and 0 elsewhere, so d(n) is a
  non-negative real whatever the degree sum holds. Its weight for edge r is d(s r) · d(t r), with s r and t r the
  edge's source and target ids, each wrapped once by the node count where negative and then clamped into the table by
  the gather. For an edge that the segment sum lands on node n the target id is n itself — a landed id is in range and
  not negative, so the wrap and the clamp leave it —, hence the weight there is d(s r) · d(n): the hypothesis the
  two-ways law of Proof/LibAggregate.lean asks.
-/
import proofs.«171408_j12773232738731_2_alg».proof.Proof.RefRead
import proofs.«171408_j12773232738731_2_alg».proof.Proof.LibAggregate
import proofs.«171408_j12773232738731_2_alg».proof.Proof.LibLayout

noncomputable section

namespace Cert.Bridge

open Cert.ReferenceIdeal Cert.ReferenceIdeal.Gen Cert.ReferenceIdeal.Read
open Idealize.ShloMosaic Idealize.ShloMosaic.ValueIdx
open Cert.LibTakeRows Cert.LibScatterRows Cert.LibAggregate

variable (x1 : IVec S2x3200000 32)

/-- The reference's node scale at node n. -/
def nodeScale (n : Fin 100000) : EReal := val_main_v14 (F := Ideal) x1 (ix1 n)

/-- The node scale is a non-negative real. -/
theorem nodeScale_range (n : Fin 100000) : 0 ≤ nodeScale x1 n ∧ nodeScale x1 n ≠ ⊤ := by
  unfold nodeScale
  rw [val_main_v14_apply, val_main_v12_apply, val_main_v13_apply, val_main_call0_v1_apply, val_main_call0_v0_apply,
    val_main_cst_2_apply, val_main_v11_apply, val_main_cst_1_apply]
  generalize val_main_v10 (F := Ideal) x1 (ix1 n) = g
  show 0 ≤ (if Ideal.cmp .ogt g (Ideal.ofBits .f32 0x00000000#32) = 1 then Ideal.rsqrt g else Ideal.ofBits .f32 0x00000000#32)
    ∧ (if Ideal.cmp .ogt g (Ideal.ofBits .f32 0x00000000#32) = 1 then Ideal.rsqrt g else Ideal.ofBits .f32 0x00000000#32) ≠ ⊤
  rw [Ideal.ofBits_zero_f32]
  split
  · rename_i h
    have hg : (0 : EReal) < g := by
      by_contra hng
      have h0 : Ideal.cmp .ogt g 0 = 0 := by simp [Ideal.cmp, hng]
      rw [h0] at h
      exact absurd h (by decide)
    exact rsqrt_nonneg_ne_top g hg
  · exact ⟨le_refl _, EReal.zero_ne_top⟩

/-- The reference's weight of edge r. -/
def edgeWeight (r : Fin 3300000) : EReal := val_main_v29 (F := Ideal) x1 (ix1 r)

theorem wfVec : GatherDims.WF ⟨1, ![100000]⟩ ⟨2, ![3300000, 1]⟩ ⟨1, ![3300000]⟩ [] [0] [] [0] [] 1 ![1] := by decide

/-- The weight of an edge is the scale of its source row, as the row gather reads it, times the scale of its target
    row, as the vector gather reads it. -/
theorem edgeWeight_eq (r : Fin 3300000) :
    edgeWeight x1 r
      = nodeScale x1 ⟨min (val_main_v20 (F := Ideal) x1 (ix2 r (0 : Fin 1))).toInt.toNat (100000 - 1), by omega⟩
        * nodeScale x1 ⟨min (val_main_v27 (F := Ideal) x1 (ix2 r (0 : Fin 1))).toInt.toNat (100000 - 1), by omega⟩ := by
  unfold edgeWeight nodeScale
  rw [val_main_v29_apply]
  show val_main_v21 (F := Ideal) x1 (ix1 r) * val_main_v28 (F := Ideal) x1 (ix1 r) = _
  unfold val_main_v21 val_main_v28
  have e1 := gather_vec_apply (N := 100000) (R := 3300000) (by decide) wfVec (val_main_v14 (F := Ideal) x1)
    (val_main_v20 (F := Ideal) x1) (ix1 r)
  have e2 := gather_vec_apply (N := 100000) (R := 3300000) (by decide) wfVec (val_main_v14 (F := Ideal) x1)
    (val_main_v27 (F := Ideal) x1) (ix1 r)
  exact congr (congrArg _ e1) e2

/-- A target id that a segment sum lands on node n reads back, through the wrap and the clamp, as n. -/
theorem landed_target (r : Fin 3300000) (n : Fin 100000)
    (h : (val_main_v6 (F := Ideal) x1 (ix1 r)).toInt = (n.val : Int)) :
    min (val_main_v27 (F := Ideal) x1 (ix2 r (0 : Fin 1))).toInt.toNat (100000 - 1) = n.val := by
  have e : val_main_v27 (F := Ideal) x1 (ix2 r (0 : Fin 1)) = val_main_v6 (F := Ideal) x1 (ix1 r) := by
    rw [val_main_v27_apply]
    have hi : idx_main_v27 (ix2 r (0 : Fin 1)) = ix1 r := by
      funext a; apply Fin.ext
      match a with
      | ⟨0, _⟩ => rfl
    rw [hi, val_main_v26_apply, val_main_v23_apply, val_main_v22_apply, val_main_c_4_apply]
    generalize val_main_v6 (F := Ideal) x1 (ix1 r) = t at h ⊢
    have hs : IntOp.cmpi .slt t 0#32 = 0 := by
      show BitVec.ofBool (t.slt 0#32) = 0
      have hf : t.slt 0#32 = false := by
        apply Bool.eq_false_iff.mpr
        intro hlt
        have h1 := BitVec.slt_iff_toInt_lt.mp hlt
        have h0 : (0#32 : BitVec 32).toInt = 0 := by decide
        rw [h0] at h1
        omega
      rw [hf]; rfl
    show (if IntOp.cmpi .slt t 0#32 = 1 then _ else t) = t
    rw [hs, if_neg (by decide)]
  rw [e, h]
  have := n.isLt
  omega

end Cert.Bridge

end
-- ==== Proof.LibDotGeneral.lean ====
/-
  A plain M × K by K × N host matrix product (`dot_general` contracting the left operand's second axis with the right
  operand's first), read at one entry: at the exact (extended real) values the entry (a, b) is the sum over the contracted
  coordinate c of A (a, c) · B (c, b), whatever schedule the host uses.
-/
import Idealize.ShloMosaic.Lib.ValueIdx
import Idealize.ShloMosaic.PureOps.Ideal.Laws

noncomputable section

open scoped BigOperators

namespace Cert.LibDotGeneral

open Idealize.ShloMosaic Idealize.ShloMosaic.ValueIdx

/-- The host product of an `M × K` by a `K × N` matrix, at entry `(a, b)`, is `∑ c, A (a, c) · B (c, b)` over the
    extended reals. -/
theorem dotGeneral_plain_apply {M K N : Nat} {φ₁ φ₂ : FTy} (prec : Option ContractPrecision) (sched : HostSchedule)
    (A : FVec Ideal ⟨2, ![M, K]⟩ φ₁) (B : FVec Ideal ⟨2, ![K, N]⟩ φ₂) (a : Fin M) (b : Fin N) :
    FloatOps.dotGeneral (DotDims.plain M K N) prec sched A B (ix2 a b) = ∑ c : Fin K, A (ix2 a c) * B (ix2 c b) := by
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibDotGeneral

end
-- ==== Proof.Layers.lean ====
/-
  The kernel's node scores are the reference's.

  The kernel scales every node row by d(n) before a neighbourhood sum and once more after it; the reference weights
  every edge by d(source) · d(target) inside the sum. Both sum over the same edges — the same gather of source rows,
  the same segment sum over target ids — so by the two-ways law (Proof/LibAggregate.lean, with the edge weights of
  Proof/Norm.lean) the scaled sums agree entry by entry, layer after layer:
      d(n) · Σ_{t r = n} d(s r) · hw(s r, c)  =  Σ_{t r = n} (d(s r) · d(t r)) · hw(s r, c).
  With the first layer's sums equal the second layer's products are equal, then its sums, then the scores: the
  kernel's logistic is the reference's 1 / (1 + exp(−y)) at every extended real. The closing pairing of scores is the
  same operations on both sides.
-/
import proofs.«171408_j12773232738731_2_alg».proof.Proof.Norm
import proofs.«171408_j12773232738731_2_alg».proof.Proof.Values
import proofs.«171408_j12773232738731_2_alg».proof.Proof.LibDotGeneral
import proofs.«171408_j12773232738731_2_alg».proof.Proof.LibLayout
import Idealize.ShloMosaic.Lib.ValueLayout

noncomputable section

open scoped BigOperators

namespace Cert.Bridge

open Cert.ReferenceIdeal Cert.ReferenceIdeal.Gen Cert.ReferenceIdeal.Read
open Idealize.ShloMosaic Idealize.ShloMosaic.ValueIdx Cert.Gcn
open Cert.LibTakeRows Cert.LibScatterRows Cert.LibAggregate
open Cert.KernelIdeal.Values (srcIds dstIds idCol wrapCol degree scale scaleCol aggregate16 aggregate8 pairScores rows1 rows2 scores)

variable (x0 : FVec Ideal S100000x128 .f32) (x1 : IVec S2x3200000 32) (x2 : IVec S500000x2 32)
  (x3 : FVec Ideal S128x16 .f32) (x4 : FVec Ideal S16 .f32) (x5 : FVec Ideal S16x8 .f32) (x6 : FVec Ideal S8 .f32)
  (x7 : FVec Ideal S8x1 .f32) (x8 : FVec Ideal S1 .f32)

/-! ## The shared prefix: the same host operations on both sides -/

theorem scale_eq : scale x1 = val_main_v14 (F := Ideal) x1 := rfl
theorem wrapSrc_eq : wrapCol (srcIds x1) = val_main_v37 (F := Ideal) x1 := rfl
theorem idDst_eq : idCol (dstIds x1) = val_main_v42 (F := Ideal) x1 := rfl
theorem src20_eq : val_main_v20 (F := Ideal) x1 = val_main_v37 (F := Ideal) x1 := rfl
theorem src54_eq : val_main_v54 (F := Ideal) x1 = val_main_v37 (F := Ideal) x1 := rfl
theorem dst59_eq : val_main_v59 (F := Ideal) x1 = val_main_v42 (F := Ideal) x1 := rfl

theorem wfg16 : GatherDims.WF ⟨2, ![100000, 16]⟩ ⟨2, ![3300000, 1]⟩ ⟨2, ![3300000, 16]⟩ [1] [0] [] [0] [] 1 ![1, 16] := by decide
theorem wfs16 : ScatterDims.WF ⟨2, ![100000, 16]⟩ ⟨2, ![3300000, 1]⟩ ⟨2, ![3300000, 16]⟩ [1] [0] [0] 1 := by decide
theorem wfg8 : GatherDims.WF ⟨2, ![100000, 8]⟩ ⟨2, ![3300000, 1]⟩ ⟨2, ![3300000, 8]⟩ [1] [0] [] [0] [] 1 ![1, 8] := by decide
theorem wfs8 : ScatterDims.WF ⟨2, ![100000, 8]⟩ ⟨2, ![3300000, 1]⟩ ⟨2, ![3300000, 8]⟩ [1] [0] [0] 1 := by decide

theorem zero16 (i : S100000x16.Idx) : val_main_v41 (F := Ideal) i = 0 := by
  rw [val_main_v41_apply, val_main_cst_8_apply]; exact Ideal.ofBits_zero_f32
theorem zero8 (i : S100000x8.Idx) : val_main_v58 (F := Ideal) i = 0 := by
  rw [val_main_v58_apply, val_main_cst_11_apply]; exact Ideal.ofBits_zero_f32

/-- The scale column at row a is the node scale. -/
theorem scaleCol_apply (a : Fin 100000) : scaleCol x1 (ix2 a (0 : Fin 1)) = nodeScale x1 a :=
  Cert.LibLayout.castCol_apply (scale x1) _ a

/-! ## The weight of an edge that lands -/

theorem landed_weight {C : Nat} (wfs : ScatterDims.WF ⟨2, ![100000, C]⟩ ⟨2, ![3300000, 1]⟩ ⟨2, ![3300000, C]⟩ [1] [0] [0] 1)
    (j : (⟨2, ![3300000, C]⟩ : Shape).Idx) (i : (⟨2, ![100000, C]⟩ : Shape).Idx)
    (h : (rowsScatter 100000 3300000 C wfs).resultIdx? j (val_main_v42 (F := Ideal) x1) = some i) :
    edgeWeight x1 ⟨(j 0).val, idx2_lt0 j⟩
      = nodeScale x1 ⟨min (val_main_v37 (F := Ideal) x1 (rowIdx j)).toInt.toNat (100000 - 1), by omega⟩
        * nodeScale x1 ⟨(i 0).val, idx2_lt0 i⟩ := by
  obtain ⟨hid, -⟩ := scatter_rows_lands wfs _ j i h
  have hv : val_main_v42 (F := Ideal) x1 (idOf j) = val_main_v6 (F := Ideal) x1 (ix1 ⟨(j 0).val, idx2_lt0 j⟩) := by
    rw [val_main_v42_apply]
    refine congrArg _ ?_
    funext a; apply Fin.ext
    match a with
    | ⟨0, _⟩ => rfl
  rw [hv] at hid
  have ht := landed_target x1 ⟨(j 0).val, idx2_lt0 j⟩ ⟨(i 0).val, idx2_lt0 i⟩ hid
  rw [edgeWeight_eq]
  exact congr (congrArg _ (show nodeScale x1 ⟨min (val_main_v20 (F := Ideal) x1 (ix2 (⟨(j 0).val, idx2_lt0 j⟩ : Fin 3300000) (0 : Fin 1))).toInt.toNat (100000 - 1), by omega⟩
      = nodeScale x1 ⟨min (val_main_v37 (F := Ideal) x1 (rowIdx j)).toInt.toNat (100000 - 1), by omega⟩ from rfl))
    (congrArg (nodeScale x1) (Fin.ext ht))

/-! ## First layer -/

theorem aggregate16_eq (h : FVec Ideal S100000x16 .f32) :
    aggregate16 x1 h = Host.scatterAdd (F := Ideal) (φ := .f32) (rowsScatter 100000 3300000 16 wfs16) (val_main_v41 (F := Ideal))
      (val_main_v42 (F := Ideal) x1) (Host.gather (rowsDims 100000 3300000 16 wfg16) h (val_main_v37 (F := Ideal) x1)) := rfl

theorem sums16_eq : val_main_v43 (F := Ideal) x0 x1 x3
    = Host.scatterAdd (F := Ideal) (φ := .f32) (rowsScatter 100000 3300000 16 wfs16) (val_main_v41 (F := Ideal))
      (val_main_v42 (F := Ideal) x1) (val_main_v40 (F := Ideal) x0 x1 x3) := rfl

theorem rows1_eq : rows1 x0 x1 x3
    = fun k => nodeScale x1 ⟨(k 0).val, idx2_lt0 k⟩ * val_main_v30 (F := Ideal) x0 x3 k := by
  funext k
  obtain ⟨a, b, rfl⟩ : ∃ (a : Fin 100000) (b : Fin 16), k = ix2 a b := ⟨k 0, k 1, eq_ix2 k⟩
  show scaleCol x1 (ix2 a (0 : Fin 1)) * ∑ c : Fin 128, x0 (ix2 a c) * x3 (ix2 c b)
    = nodeScale x1 a * val_main_v30 (F := Ideal) x0 x3 (ix2 a b)
  have h2 : val_main_v30 (F := Ideal) x0 x3 (ix2 a b) = ∑ c : Fin 128, x0 (ix2 a c) * x3 (ix2 c b) :=
    Cert.LibDotGeneral.dotGeneral_plain_apply (M := 100000) (K := 128) (N := 16) none .single x0 x3 a b
  rw [scaleCol_apply, h2]

theorem msgs16_eq : val_main_v40 (F := Ideal) x0 x1 x3
    = fun j => edgeWeight x1 ⟨(j 0).val, idx2_lt0 j⟩
        * Host.gather (rowsDims 100000 3300000 16 wfg16) (val_main_v30 (F := Ideal) x0 x3) (val_main_v37 (F := Ideal) x1) j := by
  funext j
  rw [val_main_v40_apply]
  show val_main_v39 (F := Ideal) x1 j * val_main_v38 (F := Ideal) x0 x1 x3 j = _
  rw [val_main_v39_apply, val_main_v31_apply]
  have hi : idx_main_v31 (idx_main_v39 j) = ix1 ⟨(j 0).val, idx2_lt0 j⟩ := by
    funext a; apply Fin.ext
    match a with
    | ⟨0, _⟩ => rfl
  rw [hi]
  rfl

/-- FIRST LAYER: the node scale times the kernel's neighbourhood sum is the reference's weighted sum. -/
theorem layer1 (i : S100000x16.Idx) :
    nodeScale x1 ⟨(i 0).val, idx2_lt0 i⟩ * aggregate16 x1 (rows1 x0 x1 x3) i = val_main_v43 (F := Ideal) x0 x1 x3 i := by
  rw [aggregate16_eq, rows1_eq, sums16_eq, msgs16_eq]
  exact scaled_aggregate (by decide) wfg16 wfs16 (nodeScale x1) (fun a => (nodeScale_range x1 a).1)
    (fun a => (nodeScale_range x1 a).2) (val_main_v30 (F := Ideal) x0 x3) (val_main_v41 (F := Ideal)) zero16
    (val_main_v37 (F := Ideal) x1) (val_main_v42 (F := Ideal) x1) (edgeWeight x1)
    (fun j i h => landed_weight x1 wfs16 j i h) i

/-! ## Second layer -/

theorem aggregate8_eq (h : FVec Ideal S100000x8 .f32) :
    aggregate8 x1 h = Host.scatterAdd (F := Ideal) (φ := .f32) (rowsScatter 100000 3300000 8 wfs8) (val_main_v58 (F := Ideal))
      (val_main_v42 (F := Ideal) x1) (Host.gather (rowsDims 100000 3300000 8 wfg8) h (val_main_v37 (F := Ideal) x1)) := rfl

theorem sums8_eq : val_main_v60 (F := Ideal) x0 x1 x3 x4 x5
    = Host.scatterAdd (F := Ideal) (φ := .f32) (rowsScatter 100000 3300000 8 wfs8) (val_main_v58 (F := Ideal))
      (val_main_v42 (F := Ideal) x1) (val_main_v57 (F := Ideal) x0 x1 x3 x4 x5) := rfl

theorem rows2_eq : rows2 x0 x1 x3 x4 x5
    = fun k => nodeScale x1 ⟨(k 0).val, idx2_lt0 k⟩ * val_main_v47 (F := Ideal) x0 x1 x3 x4 x5 k := by
  funext k
  obtain ⟨a, b, rfl⟩ : ∃ (a : Fin 100000) (b : Fin 8), k = ix2 a b := ⟨k 0, k 1, eq_ix2 k⟩
  show scaleCol x1 (ix2 a (0 : Fin 1)) * ∑ c : Fin 16,
      (scaleCol x1 (ix2 a (0 : Fin 1)) * aggregate16 x1 (rows1 x0 x1 x3) (ix2 a c)
        + shapeCast Cert.KernelIdeal.S1x16 x4 Cert.KernelIdeal.Gen.shapeCasts_S16_S1x16 (ix2 (0 : Fin 1) c)) * x5 (ix2 c b)
    = nodeScale x1 a * val_main_v47 (F := Ideal) x0 x1 x3 x4 x5 (ix2 a b)
  have h2 : val_main_v47 (F := Ideal) x0 x1 x3 x4 x5 (ix2 a b)
      = ∑ c : Fin 16, val_main_v46 (F := Ideal) x0 x1 x3 x4 (ix2 a c) * x5 (ix2 c b) :=
    Cert.LibDotGeneral.dotGeneral_plain_apply (M := 100000) (K := 16) (N := 8) none .single
      (val_main_v46 (F := Ideal) x0 x1 x3 x4) x5 a b
  rw [scaleCol_apply, h2]
  refine congrArg _ (Finset.sum_congr rfl fun c _ => ?_)
  have hb : val_main_v45 (F := Ideal) x4 (ix2 a c) = x4 (ix1 c) := by
    unfold val_main_v45 val_main_v44
    rw [Cert.LibLayout.rowInDim_apply, Cert.LibLayout.vecRow_apply]
  have hs : shapeCast Cert.KernelIdeal.S1x16 x4 Cert.KernelIdeal.Gen.shapeCasts_S16_S1x16 (ix2 (0 : Fin 1) c) = x4 (ix1 c) :=
    shapeCast_a_1a_apply x4 _ 0 c
  have hl := layer1 x0 x1 x3 (ix2 a c)
  rw [val_main_v46_apply]
  show (nodeScale x1 a * aggregate16 x1 (rows1 x0 x1 x3) (ix2 a c) + _) * _
    = (val_main_v43 (F := Ideal) x0 x1 x3 (ix2 a c) + val_main_v45 (F := Ideal) x4 (ix2 a c)) * _
  rw [hb, hs, ← hl]

theorem msgs8_eq : val_main_v57 (F := Ideal) x0 x1 x3 x4 x5
    = fun j => edgeWeight x1 ⟨(j 0).val, idx2_lt0 j⟩
        * Host.gather (rowsDims 100000 3300000 8 wfg8) (val_main_v47 (F := Ideal) x0 x1 x3 x4 x5) (val_main_v37 (F := Ideal) x1) j := by
  funext j
  rw [val_main_v57_apply]
  show val_main_v56 (F := Ideal) x1 j * val_main_v55 (F := Ideal) x0 x1 x3 x4 x5 j = _
  rw [val_main_v56_apply, val_main_v48_apply]
  have hi : idx_main_v48 (idx_main_v56 j) = ix1 ⟨(j 0).val, idx2_lt0 j⟩ := by
    funext a; apply Fin.ext
    match a with
    | ⟨0, _⟩ => rfl
  rw [hi]
  rfl

/-- SECOND LAYER: the node scale times the kernel's neighbourhood sum is the reference's weighted sum. -/
theorem layer2 (i : S100000x8.Idx) :
    nodeScale x1 ⟨(i 0).val, idx2_lt0 i⟩ * aggregate8 x1 (rows2 x0 x1 x3 x4 x5) i
      = val_main_v60 (F := Ideal) x0 x1 x3 x4 x5 i := by
  rw [aggregate8_eq, rows2_eq, sums8_eq, msgs8_eq]
  exact scaled_aggregate (by decide) wfg8 wfs8 (nodeScale x1) (fun a => (nodeScale_range x1 a).1)
    (fun a => (nodeScale_range x1 a).2) (val_main_v47 (F := Ideal) x0 x1 x3 x4 x5) (val_main_v58 (F := Ideal)) zero8
    (val_main_v37 (F := Ideal) x1) (val_main_v42 (F := Ideal) x1) (edgeWeight x1)
    (fun j i h => landed_weight x1 wfs8 j i h) i

/-! ## The scores -/

theorem one_f32 : Ideal.ofBits .f32 0x3F800000#32 = 1 := by
  simp [Ideal.ofBits, Ideal.ieee, -EReal.coe_mul]; norm_num

/-- THE SCORES: the kernel's last stage of its sums is the reference's 1 / (1 + exp(−(h · Wl + bl))). -/
theorem scores_eq : scores x0 x1 x3 x4 x5 x6 x7 x8 = val_main_v73 (F := Ideal) x0 x1 x3 x4 x5 x6 x7 x8 := by
  funext k
  obtain ⟨a, b, rfl⟩ : ∃ (a : Fin 100000) (b : Fin 1), k = ix2 a b := ⟨k 0, k 1, eq_ix2 k⟩
  show Ideal.logistic ((∑ c : Fin 8,
        (scaleCol x1 (ix2 a (0 : Fin 1)) * aggregate8 x1 (rows2 x0 x1 x3 x4 x5) (ix2 a c)
          + shapeCast Cert.KernelIdeal.S1x8 x6 Cert.KernelIdeal.Gen.shapeCasts_S8_S1x8 (ix2 (0 : Fin 1) c)) * x7 (ix2 c b))
      + shapeCast Cert.KernelIdeal.S1x1 x8 Cert.KernelIdeal.Gen.shapeCasts_S1_S1x1 (ix2 (0 : Fin 1) b))
    = val_main_v73 (F := Ideal) x0 x1 x3 x4 x5 x6 x7 x8 (ix2 a b)
  rw [val_main_v73_apply, val_main_v72_apply, val_main_cst_13_apply, val_main_v71_apply, val_main_v70_apply,
    val_main_cst_12_apply, val_main_v69_apply, val_main_v68_apply, val_main_v67_apply]
  simp only [Ideal.hostDivf_def, Ideal.ofBits_def, Ideal.addf_def, Ideal.hostUnary_exp_def, Ideal.hostNegf_def, Ideal.negf_def,
    one_f32]
  unfold Ideal.logistic
  have h2 : val_main_v64 (F := Ideal) x0 x1 x3 x4 x5 x6 x7 (ix2 a b)
      = ∑ c : Fin 8, val_main_v63 (F := Ideal) x0 x1 x3 x4 x5 x6 (ix2 a c) * x7 (ix2 c b) :=
    Cert.LibDotGeneral.dotGeneral_plain_apply (M := 100000) (K := 8) (N := 1) none .single
      (val_main_v63 (F := Ideal) x0 x1 x3 x4 x5 x6) x7 a b
  have hb8 : val_main_v66 (F := Ideal) x8 (ix2 a b) = x8 (ix1 b) := by
    unfold val_main_v66 val_main_v65
    rw [Cert.LibLayout.rowInDim_apply, Cert.LibLayout.vecRow_apply]
  have hs8 : shapeCast Cert.KernelIdeal.S1x1 x8 Cert.KernelIdeal.Gen.shapeCasts_S1_S1x1 (ix2 (0 : Fin 1) b) = x8 (ix1 b) :=
    shapeCast_a_1a_apply x8 _ 0 b
  rw [h2, hb8, hs8, scaleCol_apply]
  refine congrArg (fun s => Ideal.div 1 (1 + Ideal.exp (-(s + x8 (ix1 b))))) (Finset.sum_congr rfl fun c _ => ?_)
  have hb : val_main_v62 (F := Ideal) x6 (ix2 a c) = x6 (ix1 c) := by
    unfold val_main_v62 val_main_v61
    rw [Cert.LibLayout.rowInDim_apply, Cert.LibLayout.vecRow_apply]
  have hs : shapeCast Cert.KernelIdeal.S1x8 x6 Cert.KernelIdeal.Gen.shapeCasts_S8_S1x8 (ix2 (0 : Fin 1) c) = x6 (ix1 c) :=
    shapeCast_a_1a_apply x6 _ 0 c
  have hl := layer2 x0 x1 x3 x4 x5 (ix2 a c)
  rw [val_main_v63_apply]
  show (nodeScale x1 a * aggregate8 x1 (rows2 x0 x1 x3 x4 x5) (ix2 a c) + _) * _
    = (val_main_v60 (F := Ideal) x0 x1 x3 x4 x5 (ix2 a c) + val_main_v62 (F := Ideal) x6 (ix2 a c)) * _
  rw [hb, hs, ← hl]

/-! ## The result -/

/-- The reference's result is the pairing of its scores: the closing operations are the kernel's. -/
theorem ref_pairs : val_main_v85 (F := Ideal) x0 x1 x2 x3 x4 x5 x6 x7 x8
    = pairScores (val_main_v73 (F := Ideal) x0 x1 x3 x4 x5 x6 x7 x8) x2 := rfl

/-- THE TWO RESULTS ARE ONE FUNCTION of the argument arrays. -/
theorem result_eq : pairScores (scores x0 x1 x3 x4 x5 x6 x7 x8) x2
    = val_main_v85 (F := Ideal) x0 x1 x2 x3 x4 x5 x6 x7 x8 := by
  rw [ref_pairs, scores_eq]

end Cert.Bridge

end
-- ==== Proof.lean ====
/-
  A two-layer graph convolution with a per-pair link score, three ways of one computation.

  The kernel program normalises each neighbourhood sum by scaling node rows with d(n) = 1/sqrt(degree n) before the sum
  and once more after it, inside three dense node stages (pallas_calls over 20 blocks of 5000 nodes) with the gathers
  and segment sums between them on the host; the reference weights every edge by d(source) · d(target) inside the sum.
  At the exact (extended real) values the two agree because d(n) is a non-negative real, so multiplying by it
  distributes over the sum of whatever the rows hold (Proof/LibAggregate.lean); the finiteness of the inputs is not
  needed. The argument, module by module:
    · Proof/Stages.lean, Payloads.lean, Region0–2.lean: each pallas_call's output array is one whole-array function
      (stage1, stage2, stage3) of its input arrays;
    · Proof/KernelRun.lean, Values.lean, Chain.lean: the idealized program's run ends with its result buffer at
      pairScores (scores …) of the argument arrays, the arguments unchanged;
    · Proof/RefRun.lean, RefRead.lean: the reference's run, and its result one operation at a time;
    · Proof/Norm.lean, Layers.lean: the two results are one function of the argument arrays.
  The frames of the two kernel programs are the generated ones; the reference's frame is its run with the result
  dropped; the idealization rewrote nothing, so there is nothing to preserve.
-/
import proofs.«171408_j12773232738731_2_alg».proof.Defs
import proofs.«171408_j12773232738731_2_alg».proof.Proof.Gen.Kernel
import proofs.«171408_j12773232738731_2_alg».proof.Proof.Gen.Kernel.Skeleton
import proofs.«171408_j12773232738731_2_alg».proof.Proof.Gen.Kernel.Launch
import proofs.«171408_j12773232738731_2_alg».proof.Proof.Gen.Kernel.Points
import proofs.«171408_j12773232738731_2_alg».proof.Proof.Gen.Kernel.Frame
import proofs.«171408_j12773232738731_2_alg».proof.Proof.Gen.KernelIdeal
import proofs.«171408_j12773232738731_2_alg».proof.Proof.Gen.KernelIdeal.Skeleton
import proofs.«171408_j12773232738731_2_alg».proof.Proof.Gen.KernelIdeal.Launch
import proofs.«171408_j12773232738731_2_alg».proof.Proof.Gen.KernelIdeal.Points
import proofs.«171408_j12773232738731_2_alg».proof.Proof.Gen.KernelIdeal.Frame
import proofs.«171408_j12773232738731_2_alg».proof.Proof.Gen.ReferenceIdeal
import proofs.«171408_j12773232738731_2_alg».proof.Proof.Gen.Pre_finite_inputs
import proofs.«171408_j12773232738731_2_alg».proof.Proof.RefRun
import proofs.«171408_j12773232738731_2_alg».proof.Proof.RefRead
import proofs.«171408_j12773232738731_2_alg».proof.Proof.KernelRun
import proofs.«171408_j12773232738731_2_alg».proof.Proof.Chain
import proofs.«171408_j12773232738731_2_alg».proof.Proof.Layers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the pair scores of the same node scores: the
    kernel's run ends at pairScores (scores …) of its arguments (Chain), the reference's at its own composed term
    (Read), and the two are one function of the arguments (Layers). -/
theorem algebraic : Cert.algebraic_KernelIdeal_ReferenceIdeal := by
  intro m ρ m' ρ' _ hagree
  refine ⟨fun c => Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.RunValues.run_values (F := Ideal) m ρ)
    rw [Cert.KernelIdeal.Chain.w9_v53 m ρ c]
    exact Cert.Bridge.result_eq _ _ _ _ _ _ _ _ _
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v85_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
